-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x512 .f32 .bf16
  ∧ IdealRules.truncf_extf.Statement Cert.KernelIdeal.S1024x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S1024x512 : Shape := ⟨2, ![1024, 512]⟩
abbrev S1x512 : Shape := ⟨2, ![1, 512]⟩
abbrev S1 : Shape := ⟨1, ![1]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S16x4096x512 .f32) (main_arg1 : FVec F S1024x512 .f32) (main_arg2 : FVec F S1x512 .f32) (main_arg3 : FVec F S1 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S16x4096x512 : Shape := ⟨3, ![16, 4096, 512]⟩
abbrev S1024x512 : Shape := ⟨2, ![1024, 512]⟩
abbrev S1x512 : Shape := ⟨2, ![1, 512]⟩
abbrev S1 : Shape := ⟨1, ![1]⟩
abbrev S16x1024 : Shape := ⟨2, ![16, 1024]⟩
abbrev S8x128x512 : Shape := ⟨3, ![8, 128, 512]⟩
abbrev S8x1024 : Shape := ⟨2, ![8, 1024]⟩
abbrev S8x1x1024 : Shape := ⟨3, ![8, 1, 1024]⟩
abbrev S1x1x512 : Shape := ⟨3, ![1, 1, 512]⟩
abbrev S512x1024 : Shape := ⟨2, ![512, 1024]⟩
abbrev S1024x1024 : Shape := ⟨2, ![1024, 1024]⟩
abbrev S8x128x1024 : Shape := ⟨3, ![8, 128, 1024]⟩
abbrev S8x128 : Shape := ⟨2, ![8, 128]⟩
abbrev S8x128x1 : Shape := ⟨3, ![8, 128, 1]⟩
abbrev S_ : Shape := ⟨0, ![]⟩

abbrev nBuf : Space → Nat
  | .hbm => 8
  | .vmem => 9
  | .smem => 0
  | _ => 0

abbrev bufTy : (tb : Table) → Fin (tcTables nBuf tb) → BufTy
  | .hbm, ⟨0, _⟩ => ⟨S16x4096x512, .f32⟩
  | .hbm, ⟨1, _⟩ => ⟨S1024x512, .f32⟩
  | .hbm, ⟨2, _⟩ => ⟨S1x512, .f32⟩
  | .hbm, ⟨3, _⟩ => ⟨S1, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .local _ .vmem, ⟨0, _⟩ => ⟨S8x128x512, .f32⟩
  | .local _ .vmem, ⟨1, _⟩ => ⟨S8x128x512, .f32⟩
  | .local _ .vmem, ⟨2, _⟩ => ⟨S1024x512, .f32⟩
  | .local _ .vmem, ⟨3, _⟩ => ⟨S1x512, .f32⟩
  | .local _ .vmem, ⟨4, _⟩ => ⟨S8x1024, .f32⟩
  | .local _ .vmem, ⟨5, _⟩ => ⟨S8x1024, .f32⟩
  | .local _ .vmem, ⟨6, _⟩ => ⟨S8x1x1024, .f32⟩
  | .local _ .vmem, ⟨7, _⟩ => ⟨S8x1x1024, .f32⟩
  | .local _ .vmem, ⟨8, _⟩ => ⟨S8x1x1024, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v59 : BitVec 1 := Scalar.cmpi .eq arg1 c31_i32
  let v60 : BitVec 32 := Scalar.extui v59
  let c0_i32_31 : BitVec 32 := 0#32
  let v61 : BitVec 1 := Scalar.cmpi .ne v60 c0_i32_31
  v61

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x1x1024_S8x1x1024_0_0_0 : ∀ a, (![0, 0, 0] : Fin 3 → Nat) a + S8x1x1024.size a ≤ S8x1x1024.size a
  h_S8x1x1024 : 0 < S8x1x1024.numel
  shapeCasts_S8x1x1024_S8x1x1024 : S8x1x1024.ShapeCasts S8x1x1024
  inb_S8x128x512_S8x128x512_0_0_0 : ∀ a, (![0, 0, 0] : Fin 3 → Nat) a + S8x128x512.size a ≤ S8x128x512.size a
  h_S8x128x512 : 0 < S8x128x512.numel
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x1x512 : S1x512.ShapeCasts S1x1x512
  shapeCasts_S8x128x512_S1024x512 : S8x128x512.ShapeCasts S1024x512
  bitsLt_bf16_f32 : FTy.bits .bf16 < FTy.bits .f32
  transposes_S1024x512_p1_0_S512x1024 : S1024x512.Transposes [1, 0] S512x1024
  shapeCasts_S1024x1024_S8x128x1024 : S1024x1024.ShapeCasts S8x128x1024
  broadcasts_S1x1x512_S8x128x512 : S1x1x512.Broadcasts S8x128x512
  reduces_S8x128x512_S8x128 : S8x128x512.Reduces [2] S8x128
  shapeCasts_S8x128_S8x128x1 : S8x128.ShapeCasts S8x128x1
  reduces_S8x128x1024_S8x1024 : S8x128x1024.Reduces [1] S8x1024
  shapeCasts_S8x1024_S8x1x1024 : S8x1024.ShapeCasts S8x1x1024
  broadcasts_S8x1x1024_S8x128x1024 : S8x1x1024.Broadcasts S8x128x1024
  broadcasts_S8x128x1_S8x128x1024 : S8x128x1.Broadcasts S8x128x1024
  shapeCasts_S8x1x1024_S8x1024 : S8x1x1024.ShapeCasts S8x1024
  inb_S8x1024_S8x1024_0_0 : ∀ a, (![0, 0] : Fin 2 → Nat) a + S8x1024.size a ≤ S8x1024.size a
  h_S8x1024 : 0 < S8x1024.numel
  shapeCasts_S1_S_ : S1.ShapeCasts S_
  bcast_S_S16x1024 : S_.BroadcastsInDim S16x1024 (![] : Fin 0 → Fin S16x1024.rank)
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x512.size a ≤ S16x4096x512.size a
  hwx0_0 : ∀ i : grid0.Coords, EltTy.bits .f32 = 32 ∨ (Rect.block (s := S16x4096x512) S8x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S16x1024.size a
  hwx0_3 : ∀ i : grid0.Coords, EltTy.bits .f32 = 32 ∨ (Rect.block (s := S16x1024) S8x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x4096x512 : Shape := ⟨3, ![16, 4096, 512]⟩
abbrev S1024x512 : Shape := ⟨2, ![1024, 512]⟩
abbrev S1x512 : Shape := ⟨2, ![1, 512]⟩
abbrev S1 : Shape := ⟨1, ![1]⟩
abbrev S16x4096x1024 : Shape := ⟨3, ![16, 4096, 1024]⟩
abbrev S_ : Shape := ⟨0, ![]⟩
abbrev S16x1024 : Shape := ⟨2, ![16, 1024]⟩
abbrev S16x1x1024 : Shape := ⟨3, ![16, 1, 1024]⟩
abbrev S16x1024x512 : Shape := ⟨3, ![16, 1024, 512]⟩
abbrev S16x1024x1 : Shape := ⟨3, ![16, 1024, 1]⟩

abbrev nBuf : Space → Nat
  | .hbm => 25
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S1024x512, .f32⟩
  | .hbm, ⟨2, _⟩ => ⟨S1x512, .f32⟩
  | .hbm, ⟨3, _⟩ => ⟨S1, .f32⟩
  | .hbm, ⟨4, _⟩ => ⟨S16x4096x1024, .f32⟩
  | .hbm, ⟨5, _⟩ => ⟨S_, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1x1024, .f32⟩
  | .hbm, ⟨11, _⟩ => ⟨S16x4096x1024, .f32⟩
  | .hbm, ⟨12, _⟩ => ⟨S16x4096x1024, .f32⟩
  | .hbm, ⟨13, _⟩ => ⟨S16x4096x1024, .f32⟩
  | .hbm, ⟨14, _⟩ => ⟨S_, .f32⟩
  | .hbm, ⟨15, _⟩ => ⟨S16x1024, .f32⟩
  | .hbm, ⟨16, _⟩ => ⟨S16x1x1024, .f32⟩
  | .hbm, ⟨17, _⟩ => ⟨S16x4096x1024, .f32⟩
  | .hbm, ⟨18, _⟩ => ⟨S16x4096x1024, .f32⟩
  | .hbm, ⟨19, _⟩ => ⟨S16x1024x512, .f32⟩
  | .hbm, ⟨20, _⟩ => ⟨S16x1024x1, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S16x4096x1024_S16x1024_d1 : S16x4096x1024.ReducesTo [1] S16x1024
  h_S_ : 0 < S_.numel
  bcast_S_S16x1024 : S_.BroadcastsInDim S16x1024 (![] : Fin 0 → Fin S16x1024.rank)
  bcast_S16x1024_S16x1x1024_0_2 : S16x1024.BroadcastsInDim S16x1x1024 (![0, 2] : Fin 2 → Fin S16x1x1024.rank)
  bcast_S16x1x1024_S16x4096x1024_0_1_2 : S16x1x1024.BroadcastsInDim S16x4096x1024 (![0, 1, 2] : Fin 3 → Fin S16x4096x1024.rank)
  shapeCasts_S16x1024x1_S16x1024 : S16x1024x1.ShapeCasts S16x1024
  shapeCasts_S1_S_ : S1.ShapeCasts S_
  dot_S16x4096x512_S1024x512_S16x4096x1024_2_1_01_0_n_n_wf : DotDims.WF S16x4096x512 S1024x512 S16x4096x1024 [2] [1] [0, 1] [0] [] []
  dot_S16x4096x1024_S16x4096x512_S16x1024x512_1_1_2_2_0_0_wf : DotDims.WF S16x4096x1024 S16x4096x512 S16x1024x512 [1] [1] [2] [2] [0] [0]
  dot_S16x1024x512_S1x512_S16x1024x1_2_1_01_0_n_n_wf : DotDims.WF S16x1024x512 S1x512 S16x1024x1 [2] [1] [0, 1] [0] [] []

variable [Facts₀]

def dot_S16x4096x512_S1024x512_S16x4096x1024_2_1_01_0_n_n : DotDims S16x4096x512 S1024x512 S16x4096x1024 where
  lhsContracting := [2]
  rhsContracting := [1]
  lhsNonContracting := [0, 1]
  rhsNonContracting := [0]
  lhsBatch := []
  rhsBatch := []
  wf := dot_S16x4096x512_S1024x512_S16x4096x1024_2_1_01_0_n_n_wf
def dot_S16x4096x1024_S16x4096x512_S16x1024x512_1_1_2_2_0_0 : DotDims S16x4096x1024 S16x4096x512 S16x1024x512 where
  lhsContracting := [1]
  rhsContracting := [1]
  lhsNonContracting := [2]
  rhsNonContracting := [2]
  lhsBatch := [0]
  rhsBatch := [0]
  wf := dot_S16x4096x1024_S16x4096x512_S16x1024x512_1_1_2_2_0_0_wf
def dot_S16x1024x512_S1x512_S16x1024x1_2_1_01_0_n_n : DotDims S16x1024x512 S1x512 S16x1024x1 where
  lhsContracting := [2]
  rhsContracting := [1]
  lhsNonContracting := [0, 1]
  rhsNonContracting := [0]
  lhsBatch := []
  rhsBatch := []
  wf := dot_S16x1024x512_S1x512_S16x1024x1_2_1_01_0_n_n_wf

class Facts : Prop extends Facts₀ where

variable [Facts]
-- ==== Proof.Pieces.lean ====
/-
  What each case of the kernel body leaves in the three carried scratch arrays and in the output block,
  as pure terms of the input blocks and of the scratch contents found at the point's start.
-/
import proofs.«110159_j22342419874354_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## A middle point: the scratch arrays found at `xs0` (running maximum), `xs1` (running sum) and `xs2` (running weighted sum) -/

theorem sout_B_0 (c : Dev nD) (i : grid0.Coords) (arg2 : Memref sig .tc .vmem S8x128x512 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S8x1024 .f32) (harg5 : arg5.IsWhole) (arg6 : Memref sig .tc .vmem S8x1x1024 .f32) (harg6 : arg6.IsWhole) (arg7 : Memref sig .tc .vmem S8x1x1024 .f32) (harg7 : arg7.IsWhole) (arg8 : Memref sig .tc .vmem S8x1x1024 .f32) (harg8 : arg8.IsWhole) (hc0 : ¬cond0_0 i) (hc1 : ¬cond0_1 i)
    (x0 : Vec F S8x128x512 .f32) (x1 : Vec F S1024x512 .f32) (x2 : Vec F S1x512 .f32) (xs0 : Vec F S8x1x1024 .f32) (xs1 : Vec F S8x1x1024 .f32) (xs2 : Vec F S8x1x1024 .f32) :
    sout0_B_0 c i arg2 harg2 arg3 harg3 arg4 harg4 arg5 harg5 arg6 harg6 arg7 harg7 arg8 harg8 hc0 hc1 x0 x1 x2 xs0 xs1 xs2 = k0_pay3 (k0_pay10 x0 x1 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz3]
  simp only [View.readAt_eq_ld, harg2.read_unread, harg3.read_unread, harg4.read_unread, harg6.read_unread, harg7.read_unread, harg8.read_unread, View.ld_unit_zero (S := S8x128x512) hz3, View.ld_unit_zero (S := S1024x512) hz2, View.ld_unit_zero (S := S1x512) hz2, View.ld_unit_zero (S := S8x1x1024) hz3]

theorem sout_B_1 (c : Dev nD) (i : grid0.Coords) (arg2 : Memref sig .tc .vmem S8x128x512 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S8x1024 .f32) (harg5 : arg5.IsWhole) (arg6 : Memref sig .tc .vmem S8x1x1024 .f32) (harg6 : arg6.IsWhole) (arg7 : Memref sig .tc .vmem S8x1x1024 .f32) (harg7 : arg7.IsWhole) (arg8 : Memref sig .tc .vmem S8x1x1024 .f32) (harg8 : arg8.IsWhole) (hc0 : ¬cond0_0 i) (hc1 : ¬cond0_1 i)
    (x0 : Vec F S8x128x512 .f32) (x1 : Vec F S1024x512 .f32) (x2 : Vec F S1x512 .f32) (xs0 : Vec F S8x1x1024 .f32) (xs1 : Vec F S8x1x1024 .f32) (xs2 : Vec F S8x1x1024 .f32) :
    sout0_B_1 c i arg2 harg2 arg3 harg3 arg4 harg4 arg5 harg5 arg6 harg6 arg7 harg7 arg8 harg8 hc0 hc1 x0 x1 x2 xs0 xs1 xs2 = k0_pay1 (k0_pay11 x0 x1 xs0) (k0_pay12 x0 x1 xs0) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz3]
  simp only [View.readAt_eq_ld, harg2.read_unread, harg3.read_unread, harg4.read_unread, harg6.read_unread, harg7.read_unread, harg8.read_unread, View.ld_unit_zero (S := S8x128x512) hz3, View.ld_unit_zero (S := S1024x512) hz2, View.ld_unit_zero (S := S1x512) hz2, View.ld_unit_zero (S := S8x1x1024) hz3]

theorem sout_B_2 (c : Dev nD) (i : grid0.Coords) (arg2 : Memref sig .tc .vmem S8x128x512 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S8x1024 .f32) (harg5 : arg5.IsWhole) (arg6 : Memref sig .tc .vmem S8x1x1024 .f32) (harg6 : arg6.IsWhole) (arg7 : Memref sig .tc .vmem S8x1x1024 .f32) (harg7 : arg7.IsWhole) (arg8 : Memref sig .tc .vmem S8x1x1024 .f32) (harg8 : arg8.IsWhole) (hc0 : ¬cond0_0 i) (hc1 : ¬cond0_1 i)
    (x0 : Vec F S8x128x512 .f32) (x1 : Vec F S1024x512 .f32) (x2 : Vec F S1x512 .f32) (xs0 : Vec F S8x1x1024 .f32) (xs1 : Vec F S8x1x1024 .f32) (xs2 : Vec F S8x1x1024 .f32) :
    sout0_B_2 c i arg2 harg2 arg3 harg3 arg4 harg4 arg5 harg5 arg6 harg6 arg7 harg7 arg8 harg8 hc0 hc1 x0 x1 x2 xs0 xs1 xs2 = k0_pay2 (k0_pay9 x0 x2) (k0_pay11 x0 x1 xs0) (k0_pay12 x0 x1 xs0) xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz3]
  simp only [View.readAt_eq_ld, harg2.read_unread, harg3.read_unread, harg4.read_unread, harg6.read_unread, harg7.read_unread, harg8.read_unread, View.ld_unit_zero (S := S8x128x512) hz3, View.ld_unit_zero (S := S1024x512) hz2, View.ld_unit_zero (S := S1x512) hz2, View.ld_unit_zero (S := S8x1x1024) hz3]

/-! ## The first point of a row group: the scratch arrays are first reset to -∞, 0, 0 and read back -/

theorem sout_A_0 (c : Dev nD) (i : grid0.Coords) (arg2 : Memref sig .tc .vmem S8x128x512 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S8x1024 .f32) (harg5 : arg5.IsWhole) (arg6 : Memref sig .tc .vmem S8x1x1024 .f32) (harg6 : arg6.IsWhole) (arg7 : Memref sig .tc .vmem S8x1x1024 .f32) (harg7 : arg7.IsWhole) (arg8 : Memref sig .tc .vmem S8x1x1024 .f32) (harg8 : arg8.IsWhole) (hc0 : cond0_0 i) (hc1 : ¬cond0_1 i)
    (x0 : Vec F S8x128x512 .f32) (x1 : Vec F S1024x512 .f32) (x2 : Vec F S1x512 .f32) :
    sout0_A_0 c i arg2 harg2 arg3 harg3 arg4 harg4 arg5 harg5 arg6 harg6 arg7 harg7 arg8 harg8 hc0 hc1 x0 x1 x2 = k0_pay3 (k0_pay10 x0 x1 k0_pay5) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S8x1x1024) hz3]
  simp only [View.readCov_unit_zero (S := S8x1x1024) _ hz3, View.readAt_eq_ld, harg2.read_unread, harg3.read_unread, harg4.read_unread, harg6.read_unread, harg7.read_unread, harg8.read_unread, View.ld_unit_zero (S := S8x128x512) hz3, View.ld_unit_zero (S := S1024x512) hz2, View.ld_unit_zero (S := S1x512) hz2, View.ld_unit_zero (S := S8x1x1024) hz3]

theorem sout_A_1 (c : Dev nD) (i : grid0.Coords) (arg2 : Memref sig .tc .vmem S8x128x512 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S8x1024 .f32) (harg5 : arg5.IsWhole) (arg6 : Memref sig .tc .vmem S8x1x1024 .f32) (harg6 : arg6.IsWhole) (arg7 : Memref sig .tc .vmem S8x1x1024 .f32) (harg7 : arg7.IsWhole) (arg8 : Memref sig .tc .vmem S8x1x1024 .f32) (harg8 : arg8.IsWhole) (hc0 : cond0_0 i) (hc1 : ¬cond0_1 i)
    (x0 : Vec F S8x128x512 .f32) (x1 : Vec F S1024x512 .f32) (x2 : Vec F S1x512 .f32) :
    sout0_A_1 c i arg2 harg2 arg3 harg3 arg4 harg4 arg5 harg5 arg6 harg6 arg7 harg7 arg8 harg8 hc0 hc1 x0 x1 x2 = k0_pay1 (k0_pay11 x0 x1 k0_pay5) (k0_pay12 x0 x1 k0_pay5) k0_pay6 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S8x1x1024) hz3]
  simp only [View.readCov_unit_zero (S := S8x1x1024) _ hz3, View.readAt_eq_ld, harg2.read_unread, harg3.read_unread, harg4.read_unread, harg6.read_unread, harg7.read_unread, harg8.read_unread, View.ld_unit_zero (S := S8x128x512) hz3, View.ld_unit_zero (S := S1024x512) hz2, View.ld_unit_zero (S := S1x512) hz2, View.ld_unit_zero (S := S8x1x1024) hz3]

theorem sout_A_2 (c : Dev nD) (i : grid0.Coords) (arg2 : Memref sig .tc .vmem S8x128x512 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S8x1024 .f32) (harg5 : arg5.IsWhole) (arg6 : Memref sig .tc .vmem S8x1x1024 .f32) (harg6 : arg6.IsWhole) (arg7 : Memref sig .tc .vmem S8x1x1024 .f32) (harg7 : arg7.IsWhole) (arg8 : Memref sig .tc .vmem S8x1x1024 .f32) (harg8 : arg8.IsWhole) (hc0 : cond0_0 i) (hc1 : ¬cond0_1 i)
    (x0 : Vec F S8x128x512 .f32) (x1 : Vec F S1024x512 .f32) (x2 : Vec F S1x512 .f32) :
    sout0_A_2 c i arg2 harg2 arg3 harg3 arg4 harg4 arg5 harg5 arg6 harg6 arg7 harg7 arg8 harg8 hc0 hc1 x0 x1 x2 = k0_pay2 (k0_pay9 x0 x2) (k0_pay11 x0 x1 k0_pay5) (k0_pay12 x0 x1 k0_pay5) k0_pay7 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S8x1x1024) hz3]
  simp only [View.readCov_unit_zero (S := S8x1x1024) _ hz3, View.readAt_eq_ld, harg2.read_unread, harg3.read_unread, harg4.read_unread, harg6.read_unread, harg7.read_unread, harg8.read_unread, View.ld_unit_zero (S := S8x128x512) hz3, View.ld_unit_zero (S := S1024x512) hz2, View.ld_unit_zero (S := S1x512) hz2, View.ld_unit_zero (S := S8x1x1024) hz3]

/-! ## The last point of a row group: the scratch arrays as at a middle point, and the output block is the quotient of the two sums just stored -/

theorem sout_C_0 (c : Dev nD) (i : grid0.Coords) (arg2 : Memref sig .tc .vmem S8x128x512 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S8x1024 .f32) (harg5 : arg5.IsWhole) (arg6 : Memref sig .tc .vmem S8x1x1024 .f32) (harg6 : arg6.IsWhole) (arg7 : Memref sig .tc .vmem S8x1x1024 .f32) (harg7 : arg7.IsWhole) (arg8 : Memref sig .tc .vmem S8x1x1024 .f32) (harg8 : arg8.IsWhole) (hc0 : ¬cond0_0 i) (hc1 : cond0_1 i)
    (x0 : Vec F S8x128x512 .f32) (x1 : Vec F S1024x512 .f32) (x2 : Vec F S1x512 .f32) (xs0 : Vec F S8x1x1024 .f32) (xs1 : Vec F S8x1x1024 .f32) (xs2 : Vec F S8x1x1024 .f32) :
    sout0_C_0 c i arg2 harg2 arg3 harg3 arg4 harg4 arg5 harg5 arg6 harg6 arg7 harg7 arg8 harg8 hc0 hc1 x0 x1 x2 xs0 xs1 xs2 = k0_pay3 (k0_pay10 x0 x1 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz3]
  simp only [View.readAt_eq_ld, harg2.read_unread, harg3.read_unread, harg4.read_unread, harg6.read_unread, harg7.read_unread, harg8.read_unread, View.ld_unit_zero (S := S8x128x512) hz3, View.ld_unit_zero (S := S1024x512) hz2, View.ld_unit_zero (S := S1x512) hz2, View.ld_unit_zero (S := S8x1x1024) hz3]

theorem sout_C_1 (c : Dev nD) (i : grid0.Coords) (arg2 : Memref sig .tc .vmem S8x128x512 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S8x1024 .f32) (harg5 : arg5.IsWhole) (arg6 : Memref sig .tc .vmem S8x1x1024 .f32) (harg6 : arg6.IsWhole) (arg7 : Memref sig .tc .vmem S8x1x1024 .f32) (harg7 : arg7.IsWhole) (arg8 : Memref sig .tc .vmem S8x1x1024 .f32) (harg8 : arg8.IsWhole) (hc0 : ¬cond0_0 i) (hc1 : cond0_1 i)
    (x0 : Vec F S8x128x512 .f32) (x1 : Vec F S1024x512 .f32) (x2 : Vec F S1x512 .f32) (xs0 : Vec F S8x1x1024 .f32) (xs1 : Vec F S8x1x1024 .f32) (xs2 : Vec F S8x1x1024 .f32) :
    sout0_C_1 c i arg2 harg2 arg3 harg3 arg4 harg4 arg5 harg5 arg6 harg6 arg7 harg7 arg8 harg8 hc0 hc1 x0 x1 x2 xs0 xs1 xs2 = k0_pay1 (k0_pay11 x0 x1 xs0) (k0_pay12 x0 x1 xs0) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz3]
  simp only [View.readAt_eq_ld, harg2.read_unread, harg3.read_unread, harg4.read_unread, harg6.read_unread, harg7.read_unread, harg8.read_unread, View.ld_unit_zero (S := S8x128x512) hz3, View.ld_unit_zero (S := S1024x512) hz2, View.ld_unit_zero (S := S1x512) hz2, View.ld_unit_zero (S := S8x1x1024) hz3]

theorem sout_C_2 (c : Dev nD) (i : grid0.Coords) (arg2 : Memref sig .tc .vmem S8x128x512 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S8x1024 .f32) (harg5 : arg5.IsWhole) (arg6 : Memref sig .tc .vmem S8x1x1024 .f32) (harg6 : arg6.IsWhole) (arg7 : Memref sig .tc .vmem S8x1x1024 .f32) (harg7 : arg7.IsWhole) (arg8 : Memref sig .tc .vmem S8x1x1024 .f32) (harg8 : arg8.IsWhole) (hc0 : ¬cond0_0 i) (hc1 : cond0_1 i)
    (x0 : Vec F S8x128x512 .f32) (x1 : Vec F S1024x512 .f32) (x2 : Vec F S1x512 .f32) (xs0 : Vec F S8x1x1024 .f32) (xs1 : Vec F S8x1x1024 .f32) (xs2 : Vec F S8x1x1024 .f32) :
    sout0_C_2 c i arg2 harg2 arg3 harg3 arg4 harg4 arg5 harg5 arg6 harg6 arg7 harg7 arg8 harg8 hc0 hc1 x0 x1 x2 xs0 xs1 xs2 = k0_pay2 (k0_pay9 x0 x2) (k0_pay11 x0 x1 xs0) (k0_pay12 x0 x1 xs0) xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz3]
  simp only [View.readAt_eq_ld, harg2.read_unread, harg3.read_unread, harg4.read_unread, harg6.read_unread, harg7.read_unread, harg8.read_unread, View.ld_unit_zero (S := S8x128x512) hz3, View.ld_unit_zero (S := S1024x512) hz2, View.ld_unit_zero (S := S1x512) hz2, View.ld_unit_zero (S := S8x1x1024) hz3]

theorem out_C_3 (c : Dev nD) (i : grid0.Coords) (arg2 : Memref sig .tc .vmem S8x128x512 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S8x1024 .f32) (harg5 : arg5.IsWhole) (arg6 : Memref sig .tc .vmem S8x1x1024 .f32) (harg6 : arg6.IsWhole) (arg7 : Memref sig .tc .vmem S8x1x1024 .f32) (harg7 : arg7.IsWhole) (arg8 : Memref sig .tc .vmem S8x1x1024 .f32) (harg8 : arg8.IsWhole) (hc0 : ¬cond0_0 i) (hc1 : cond0_1 i)
    (x0 : Vec F S8x128x512 .f32) (x1 : Vec F S1024x512 .f32) (x2 : Vec F S1x512 .f32) (xs0 : Vec F S8x1x1024 .f32) (xs1 : Vec F S8x1x1024 .f32) (xs2 : Vec F S8x1x1024 .f32) :
    out0_C_3 c i arg2 harg2 arg3 harg3 arg4 harg4 arg5 harg5 arg6 harg6 arg7 harg7 arg8 harg8 hc0 hc1 x0 x1 x2 xs0 xs1 xs2 = k0_pay4 (k0_pay2 (k0_pay9 x0 x2) (k0_pay11 x0 x1 xs0) (k0_pay12 x0 x1 xs0) xs2) (k0_pay1 (k0_pay11 x0 x1 xs0) (k0_pay12 x0 x1 xs0) xs1) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readCov_unit_zero (S := S8x1x1024) _ hz3, View.readAt_eq_ld, harg2.read_unread, harg3.read_unread, harg4.read_unread, harg6.read_unread, harg7.read_unread, harg8.read_unread, View.ld_unit_zero (S := S8x128x512) hz3, View.ld_unit_zero (S := S1024x512) hz2, View.ld_unit_zero (S := S1x512) hz2, View.ld_unit_zero (S := S8x1x1024) hz3]

end Cert.KernelIdeal.Pieces

end
-- ==== Proof.Fold.lean ====
/-
  The carried scratch arrays after each grid point, as an iteration of one body pass.

  The grid has 2 x 32 points; point `n` works on row group `n / 32` and sequence tile `n % 32`.  At the
  first tile of a row group the three scratch arrays are reset; at every tile one pass of the body updates
  them from the tile's block of `x`, the whole `q` and `w`; at the last tile the output block is the
  quotient of the weighted sum by the sum.
-/
import proofs.«110159_j22342419874354_2_alg».proof.Proof.Pieces

set_option maxRecDepth 16384

noncomputable section

open Idealize.ShloMosaic Idealize.ShloMosaic.TcCoe Idealize.SL.Sem

namespace Cert.KernelIdeal.Fold

open Cert.KernelIdeal Cert.KernelIdeal.Gen Cert.KernelIdeal.Pieces

variable {F : FTy → Type} [FloatOps F]

/-- The three carried arrays: running maximum, running sum of exponentials, running weighted sum. -/
abbrev Tri (F : FTy → Type) := Vec F S8x1x1024 .f32 × Vec F S8x1x1024 .f32 × Vec F S8x1x1024 .f32

/-- One pass of the body over the carried arrays, from the tile `x0` of `x`, the labels `x1` and the head `x2`. -/
def step (x0 : Vec F S8x128x512 .f32) (x1 : Vec F S1024x512 .f32) (x2 : Vec F S1x512 .f32) (st : Tri F) : Tri F :=
  (k0_pay3 (k0_pay10 x0 x1 st.1),
   k0_pay1 (k0_pay11 x0 x1 st.1) (k0_pay12 x0 x1 st.1) st.2.1,
   k0_pay2 (k0_pay9 x0 x2) (k0_pay11 x0 x1 st.1) (k0_pay12 x0 x1 st.1) st.2.2)

/-- The reset contents: -∞, 0, 0. -/
def reset : Tri F := (k0_pay5, k0_pay6, k0_pay7)

variable (m : (ℓ : Loc nD τ sig) → Buf (Elt F) ℓ)

/-- The carried arrays after point `n`. -/
def carried (c : Dev nD) : (n : ℕ) → n < cfg0.N → Tri F
  | 0, h => step (iblk m c 0 ⟨0, h⟩) (iblk m c 1 ⟨0, h⟩) (iblk m c 2 ⟨0, h⟩) reset
  | n + 1, h => step (iblk m c 0 ⟨n + 1, h⟩) (iblk m c 1 ⟨n + 1, h⟩) (iblk m c 2 ⟨n + 1, h⟩)
      (if (n + 1) % 32 = 0 then reset else carried c n (Nat.lt_of_succ_lt h))

/-- What the frame run found in the scratch arrays after each point is that iteration. -/
theorem carried_eq (c : Dev nD) : ∀ (n : ℕ) (h : n < cfg0.N), (outsAt0 m c n h).2 = carried m c n h
  | 0, h => by
    rw [outsAt0_A m c ⟨0, h⟩ (Nat.zero_mod 32) (by show ¬0 % 32 = 31; decide)]
    dsimp only
    rw [sout_A_0, sout_A_1, sout_A_2]
    rfl
  | n + 1, h => by
    by_cases h0 : (n + 1) % 32 = 0
    · have h1 : ¬(n + 1) % 32 = 31 := by omega
      rw [outsAt0_A m c ⟨n + 1, h⟩ h0 h1]
      dsimp only
      rw [sout_A_0, sout_A_1, sout_A_2]
      show step _ _ _ reset = step _ _ _ (if (n + 1) % 32 = 0 then reset else carried m c n _)
      rw [if_pos h0]
    · by_cases h1 : (n + 1) % 32 = 31
      · rw [outsAt0_C m c ⟨n + 1, h⟩ h0 h1]
        dsimp only
        rw [sout_C_0, sout_C_1, sout_C_2]
        show step _ _ _ (outsAt0 m c n _).2 = step _ _ _ (if (n + 1) % 32 = 0 then reset else carried m c n _)
        rw [if_neg h0, carried_eq c n]
      · rw [outsAt0_B m c ⟨n + 1, h⟩ h0 h1]
        dsimp only
        rw [sout_B_0, sout_B_1, sout_B_2]
        show step _ _ _ (outsAt0 m c n _).2 = step _ _ _ (if (n + 1) % 32 = 0 then reset else carried m c n _)
        rw [if_neg h0, carried_eq c n]

/-- At the last tile of a row group the output block is the quotient of the weighted sum by the sum. -/
theorem out_eq (c : Dev nD) (n : ℕ) (h : n < cfg0.N) (h1 : n % 32 = 31) :
    (outsAt0 m c n h).1 = k0_pay4 (carried m c n h).2.2 (carried m c n h).2.1 := by
  have h0 : ¬n % 32 = 0 := by omega
  rw [← carried_eq m c n h]
  obtain ⟨k, rfl⟩ : ∃ k, n = k + 1 := ⟨n - 1, by omega⟩
  rw [outsAt0_C m c ⟨k + 1, h⟩ h0 h1]
  dsimp only
  rw [out_C_3, sout_C_1, sout_C_2]

end Cert.KernelIdeal.Fold

end
-- ==== Proof.RegionValue.lean ====
/-
  The array the kernel region leaves, and the program's result after the bias is added.

  The output window has one block of 8 rows per row group; it is written back once, after the group's last
  sequence tile, and the two blocks tile the [16, 1024] array.  Row `8 g + b` of the array is therefore row
  `b` of the quotient (weighted sum / sum) the body forms at the last tile of group `g`.
-/
import proofs.«110159_j22342419874354_2_alg».proof.Proof.Fold
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen Cert.KernelIdeal.Fold

variable {F : FTy → Type} [FloatOps F]
variable (m : (ℓ : Loc nD τ sig) → Buf (Elt F) ℓ) (ρ : Dev nD → PrngReg)

/-- The last tile of row group `g` is a point of the grid. -/
theorem lastPoint_lt (g : Fin 2) : 32 * g.val + 31 < cfg0.N := by
  have hN : cfg0.N = 64 := N_0
  have := g.isLt
  omega

/-- The output block of row group `g`: the quotient of the two running sums after the group's last tile. -/
def groupOut (c : Dev nD) (g : Fin 2) : Vec F S8x1024 .f32 :=
  k0_pay4 (carried m c (32 * g.val + 31) (lastPoint_lt g)).2.2 (carried m c (32 * g.val + 31) (lastPoint_lt g)).2.1

/-- The whole array: row `i₀` is row `i₀ % 8` of the block of group `i₀ / 8`. -/
def regionOut (c : Dev nD) : S16x1024.Idx → Elt F .f32 := fun i =>
  groupOut m c ⟨(i 0).val / 8, by have h : (i 0).val < 16 := (i 0).isLt; omega⟩ (ix2 (⟨(i 0).val % 8, Nat.mod_lt _ (by norm_num)⟩ : Fin 8) (i 1))

/-- The output window's block index at a point: (row group, 0). -/
theorem idx_facts : ∀ t : Fin cfg0.N, win0_3.index t (0 : Fin 2) = t.val / 32 ∧ win0_3.index t (1 : Fin 2) = 0 :=
  (by decide +kernel : ∀ t : Fin grid0.N, win0_3.index t (0 : Fin 2) = t.val / 32 ∧ win0_3.index t (1 : Fin 2) = 0)

theorem carried_congr (c : Dev nD) {n n' : ℕ} (e : n = n') (h : n < cfg0.N) (h' : n' < cfg0.N) :
    carried m c n h = carried m c n' h' := by
  subst e; rfl

/-- What a flushing point writes back is its block of `regionOut`. -/
theorem flushed_eq (c : Dev nD) (t : Fin cfg0.N) (hf : (cfg0.win 3).flush t = true) :
    (dats m 0 c).flushed 3 t = ((cfg0.win 3).blk t).view.read (Elt F) (regionOut m c) := by
  have h31 : t.val % 32 = 31 := (flush0_3 t).mp hf
  have hN : cfg0.N = 64 := N_0
  have htl := t.isLt
  obtain ⟨e0, e1⟩ := idx_facts t
  show (cfg0.win 3).cut (grid0.coords t) ((dats m 0 c).after 3 t) = _
  rw [after0_3, out_eq m c t.val t.isLt h31]
  funext j
  have hj0 : (j 0).val < 8 := (j 0).isLt
  have hj1 : (j 1).val < 1024 := (j 1).isLt
  show k0_pay4 _ _ j = regionOut m c (((cfg0.win 3).blk t).view.emb j)
  have hemb : ((cfg0.win 3).blk t).view.emb j = ix2 (⟨8 * (t.val / 32) + (j 0).val, by omega⟩ : Fin 16) (⟨(j 1).val, hj1⟩ : Fin 1024) := by
    funext a; apply Fin.ext
    match a with
    | ⟨0, _⟩ => show win0_3.index t (0 : Fin 2) * 8 + 1 * (j 0).val = 8 * (t.val / 32) + (j 0).val; omega
    | ⟨1, _⟩ => show win0_3.index t (1 : Fin 2) * 1024 + 1 * (j 1).val = (j 1).val; omega
  rw [hemb]
  have en : 32 * ((8 * (t.val / 32) + (j 0).val) / 8) + 31 = t.val := by omega
  have ej : (ix2 (⟨(8 * (t.val / 32) + (j 0).val) % 8, Nat.mod_lt _ (by norm_num)⟩ : Fin 8) (⟨(j 1).val, hj1⟩ : Fin 1024) : S8x1024.Idx) = j := by
    funext a; apply Fin.ext
    match a with
    | ⟨0, _⟩ => show (8 * (t.val / 32) + (j 0).val) % 8 = (j 0).val; omega
    | ⟨1, _⟩ => rfl
  show _ = k0_pay4 (carried m c (32 * ((8 * (t.val / 32) + (j 0).val) / 8) + 31) _).2.2 (carried m c (32 * ((8 * (t.val / 32) + (j 0).val) / 8) + 31) _).2.1
    (ix2 (⟨(8 * (t.val / 32) + (j 0).val) % 8, Nat.mod_lt _ (by norm_num)⟩ : Fin 8) (⟨(j 1).val, hj1⟩ : Fin 1024))
  rw [ej, carried_congr m c en _ t.isLt]

/-- Index `i` lies in the block written back after the last tile of its row group. -/
theorem mem_lastBlock (i : S16x1024.Idx) (t : Fin cfg0.N) (ht : t.val = 32 * ((i 0).val / 8) + 31) :
    i ∈ ((cfg0.win 3).blk t).view.set := by
  have hi0 : (i 0).val < 16 := (i 0).isLt
  have hi1 : (i 1).val < 1024 := (i 1).isLt
  obtain ⟨e0, e1⟩ := idx_facts t
  have e0' : win0_3.index t (0 : Fin 2) = (i 0).val / 8 := by rw [e0, ht]; omega
  show i ∈ ((View.whole main_v0).slice (win0_3.rect t)).set
  rw [View.set_slice_whole, Rect.mem_set_unit]
  intro a
  match a with
  | ⟨0, _⟩ =>
    show win0_3.index t (0 : Fin 2) * 8 ≤ (i 0).val ∧ (i 0).val < win0_3.index t (0 : Fin 2) * 8 + 8
    rw [e0']; omega
  | ⟨1, _⟩ =>
    show win0_3.index t (1 : Fin 2) * 1024 ≤ (i 1).val ∧ (i 1).val < win0_3.index t (1 : Fin 2) * 1024 + 1024
    rw [e1]; omega

/-- Every index of the array lies in the block some flushing point writes back. -/
theorem cover (i : S16x1024.Idx) : ∃ t : Fin cfg0.N, (cfg0.win 3).flush t = true ∧ i ∈ ((cfg0.win 3).blk t).view.set := by
  have hN : cfg0.N = 64 := N_0
  have hi0 : (i 0).val < 16 := (i 0).isLt
  exact ⟨⟨32 * ((i 0).val / 8) + 31, by omega⟩, (flush0_3 _).mpr (by show (32 * ((i 0).val / 8) + 31) % 32 = 31; omega),
    mem_lastBlock i _ rfl⟩

/-- The array after the region. -/
theorem final (c : Dev nD) : (dats m 0 c).arrAt 3 cfg0.N = regionOut m c :=
  (dats m 0 c).arrAt_eq_of_cover 3 (regionOut m c) (flushed_eq m c) (cover)

/-- The program's result: the region's array plus the bias broadcast to every entry. -/
def result (c : Dev nD) : S16x1024.Idx → Elt F .f32 :=
  addf (regionOut m c) (broadcastInDim S16x1024 ![] bcast_S_S16x1024 (shapeCast S_ (m ((c : Thread nD τ).loc main_arg3)) shapeCasts_S1_S_))

/-- The host lines after the region, read: the result buffer holds `result`. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have e0 : Pipeline.withArrays (cfgs 0).spec c (V0 m c) (fun w => (dats m 0 c).arrAt w (cfgs 0).N) (Proc.devRef .tc main_v0) = regionOut m c :=
    (Pipeline.withArrays_arr spec0 launch0.win.arr_inj c _ _ 3).trans (final m c)
  have e3 : Pipeline.withArrays (cfgs 0).spec c (V0 m c) (fun w => (dats m 0 c).arrAt w (cfgs 0).N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  rw [e0, e3]
  rfl

/-- The run, read: the result buffer holds `result`, the four arguments end unchanged. -/
theorem run : θ_run defs (onTc (τ := τ) (main (F := F))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.RegionValue

end
-- ==== Proof.LibMidAxis.lean ====
import Idealize.ShloMosaic.Lib.ValueIdx
import Idealize.ShloMosaic.Lib.Pipeline.Value
import Idealize.ShloMosaic.PureOps.Ideal

/-!
# The middle axis of a rank-3 array

For arrays of shape [B, N, C]: taking entries along the middle axis at a list of positions (a StableHLO gather with
start indices [E, 1] and result [B, E, C]), adding updates [B, E, C] into the middle axis at a list of positions
(an accumulating scatter), the rectangle that is one position of the middle axis through all of the other two (a
slab), and the shape casts that drop or add the unit middle axis of a slab. Each is read at an explicit index
(b, ., c). Extents are generic.
-/

noncomputable section

namespace Idealize.ShloMosaic.ValueIdx

open Idealize.ShloMosaic

/-! ## Taking along the middle axis: operand [B, N, C], start indices [E, 1], result [B, E, C] -/

section GatherMid
variable {α : Type}

/-- The dimension numbers: result axes 0 and 2 are the operand's own (offset axes), operand axis 1 is
    collapsed and is the one a start index names, the index vector is on axis 1 of the start indices, a slice is
    all of axis 0, one position of axis 1, all of axis 2. -/
abbrev midGatherDims (B N E C : Nat)
    (wf : GatherDims.WF ⟨3, ![B, N, C]⟩ ⟨2, ![E, 1]⟩ ⟨3, ![B, E, C]⟩ [0, 2] [1] [] [1] [] 1 ![B, 1, C]) :
    GatherDims ⟨3, ![B, N, C]⟩ ⟨2, ![E, 1]⟩ ⟨3, ![B, E, C]⟩ where
  offsetDims := [0, 2]
  collapsedSliceDims := [1]
  operandBatchingDims := []
  startIndicesBatchingDims := []
  startIndexMap := [1]
  indexVectorDim := 1
  sliceSizes := ![B, 1, C]
  wf := wf

/-- Result element (b, e, c) is the operand at (b, idx[e, 0], c), the position read signed and clamped into
    [0, N - 1]. -/
theorem gather_mid_apply {B N E C w : Nat} (hN : 0 < N)
    (wf : GatherDims.WF ⟨3, ![B, N, C]⟩ ⟨2, ![E, 1]⟩ ⟨3, ![B, E, C]⟩ [0, 2] [1] [] [1] [] 1 ![B, 1, C])
    (x : (⟨3, ![B, N, C]⟩ : Shape).Idx → α) (idx : IVec ⟨2, ![E, 1]⟩ w) (b : Fin B) (e : Fin E) (c : Fin C) :
    Host.gather (midGatherDims B N E C wf) x idx (ix3 b e c) =
      x (ix3 b ⟨min (idx (ix2 e ⟨0, Nat.one_pos⟩)).toInt.toNat (N - 1), by omega⟩ c) := by
  have hn0 : (0 : Fin 3) ∉ ([1] : List (Fin 3)) := fun h =>
    absurd (congrArg Fin.val (List.mem_singleton.mp h)) (by decide)
  have hn2 : (2 : Fin 3) ∉ ([1] : List (Fin 3)) := fun h =>
    absurd (congrArg Fin.val (List.mem_singleton.mp h)) (by decide)
  have h1 : ((midGatherDims B N E C wf).operandIdx (ix3 b e c) idx (1 : Fin 3)).val =
      min (idx (ix2 e ⟨0, Nat.one_pos⟩)).toInt.toNat (N - 1) := by
    show (midGatherDims B N E C wf).start (ix3 b e c) idx 1 + (midGatherDims B N E C wf).batchCoord (ix3 b e c) 1
      + (midGatherDims B N E C wf).offCoord (ix3 b e c) 1 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (1 : Fin 3) ∈ (midGatherDims B N E C wf).startIndexMap from List.mem_singleton.mpr rfl)]
    have hsi : (midGatherDims B N E C wf).siIdx (ix3 b e c)
        ⟨List.idxOf (1 : Fin 3) (midGatherDims B N E C wf).startIndexMap,
          List.idxOf_lt_length_iff.2 (List.mem_singleton.mpr rfl)⟩ = ix2 e ⟨0, Nat.one_pos⟩ := by
      funext a; refine Fin.ext ?_
      match a with
      | ⟨0, _⟩ => rfl
      | ⟨1, _⟩ => rfl
    rw [hsi]
    rfl
  have h0 : ((midGatherDims B N E C wf).operandIdx (ix3 b e c) idx (0 : Fin 3)).val = b.val := by
    show (midGatherDims B N E C wf).start (ix3 b e c) idx 0 + (midGatherDims B N E C wf).batchCoord (ix3 b e c) 0
      + (midGatherDims B N E C wf).offCoord (ix3 b e c) 0 = _
    have hst : (midGatherDims B N E C wf).start (ix3 b e c) idx (0 : Fin 3) = 0 := by
      unfold GatherDims.start
      rw [dif_neg hn0]
    have hk : (0 : Fin 3) ∈ (midGatherDims B N E C wf).sKept :=
      (GatherDims.mem_sKept _ _).mpr ⟨hn0, List.not_mem_nil⟩
    have hoff : (midGatherDims B N E C wf).offCoord (ix3 b e c) (0 : Fin 3) = b.val := by
      unfold GatherDims.offCoord
      rw [dif_pos hk]
      rfl
    rw [GatherDims.batchCoord_eq_zero _ _ _ List.not_mem_nil, hst, hoff, Nat.add_zero, Nat.zero_add]
  have h2 : ((midGatherDims B N E C wf).operandIdx (ix3 b e c) idx (2 : Fin 3)).val = c.val := by
    show (midGatherDims B N E C wf).start (ix3 b e c) idx 2 + (midGatherDims B N E C wf).batchCoord (ix3 b e c) 2
      + (midGatherDims B N E C wf).offCoord (ix3 b e c) 2 = _
    have hst : (midGatherDims B N E C wf).start (ix3 b e c) idx (2 : Fin 3) = 0 := by
      unfold GatherDims.start
      rw [dif_neg hn2]
    have hk : (2 : Fin 3) ∈ (midGatherDims B N E C wf).sKept :=
      (GatherDims.mem_sKept _ _).mpr ⟨hn2, List.not_mem_nil⟩
    have hoff : (midGatherDims B N E C wf).offCoord (ix3 b e c) (2 : Fin 3) = c.val := by
      unfold GatherDims.offCoord
      rw [dif_pos hk]
      rfl
    rw [GatherDims.batchCoord_eq_zero _ _ _ List.not_mem_nil, hst, hoff, Nat.add_zero, Nat.zero_add]
  unfold Host.gather
  congr 1
  funext a
  refine Fin.ext ?_
  match a with
  | ⟨0, _⟩ => exact h0
  | ⟨1, _⟩ => exact h1
  | ⟨2, _⟩ => exact h2

end GatherMid

/-! ## Adding into the middle axis: operand [B, N, C], scatter indices [E, 1], updates [B, E, C] -/

section ScatterMid

/-- The dimension numbers: update axes 0 and 2 are window axes going to operand axes 0 and 2, operand axis
    1 is inserted and is the one a scatter index names, the index vector is on axis 1 of the scatter indices. -/
abbrev midScatterDims (B N E C : Nat)
    (wf : ScatterDims.WF ⟨3, ![B, N, C]⟩ ⟨2, ![E, 1]⟩ ⟨3, ![B, E, C]⟩ [0, 2] [1] [1] 1) :
    ScatterDims ⟨3, ![B, N, C]⟩ ⟨2, ![E, 1]⟩ ⟨3, ![B, E, C]⟩ where
  updateWindowDims := [0, 2]
  insertedWindowDims := [1]
  scatterDimsToOperandDims := [1]
  indexVectorDim := 1
  wf := wf

variable {B N E C w : Nat} (wf : ScatterDims.WF ⟨3, ![B, N, C]⟩ ⟨2, ![E, 1]⟩ ⟨3, ![B, E, C]⟩ [0, 2] [1] [1] 1)
  (idx : IVec ⟨2, ![E, 1]⟩ w) (b : Fin B) (e : Fin E) (c : Fin C)

private theorem not_mem_one0 : (0 : Fin 3) ∉ ([1] : List (Fin 3)) := fun h =>
  absurd (congrArg Fin.val (List.mem_singleton.mp h)) (by decide)
private theorem not_mem_one2 : (2 : Fin 3) ∉ ([1] : List (Fin 3)) := fun h =>
  absurd (congrArg Fin.val (List.mem_singleton.mp h)) (by decide)

/-- On the middle axis the window of update (b, e, c) starts at the scatter index idx[e, 0], read signed. -/
theorem scatter_mid_start1 :
    (midScatterDims B N E C wf).start (ix3 b e c) idx 1 = (idx (ix2 e ⟨0, Nat.one_pos⟩)).toInt := by
  unfold ScatterDims.start
  rw [dif_pos (show (1 : Fin 3) ∈ (midScatterDims B N E C wf).scatterDimsToOperandDims from
    List.mem_singleton.mpr rfl)]
  have hsi : (midScatterDims B N E C wf).siIdx (ix3 b e c)
      ⟨List.idxOf (1 : Fin 3) (midScatterDims B N E C wf).scatterDimsToOperandDims,
        List.idxOf_lt_length_iff.2 (List.mem_singleton.mpr rfl)⟩ = ix2 e ⟨0, Nat.one_pos⟩ := by
    funext a; refine Fin.ext ?_
    match a with
    | ⟨0, _⟩ => rfl
    | ⟨1, _⟩ => rfl
  rw [hsi]

theorem scatter_mid_start0 : (midScatterDims B N E C wf).start (ix3 b e c) idx 0 = 0 := by
  unfold ScatterDims.start
  rw [dif_neg not_mem_one0]

theorem scatter_mid_start2 : (midScatterDims B N E C wf).start (ix3 b e c) idx 2 = 0 := by
  unfold ScatterDims.start
  rw [dif_neg not_mem_one2]

theorem scatter_mid_window1 : (midScatterDims B N E C wf).window (ix3 b e c) 1 = 0 := by
  unfold ScatterDims.window
  rw [dif_neg]
  simp [ScatterDims.sKept, Shape.kept, List.mem_filter]

theorem scatter_mid_window0 : (midScatterDims B N E C wf).window (ix3 b e c) 0 = b.val := by
  have hk : (0 : Fin 3) ∈ (midScatterDims B N E C wf).sKept := by
    simp [ScatterDims.sKept, Shape.kept, List.mem_filter, List.mem_finRange]
  unfold ScatterDims.window
  rw [dif_pos hk]
  rfl

theorem scatter_mid_window2 : (midScatterDims B N E C wf).window (ix3 b e c) 2 = c.val := by
  have hk : (2 : Fin 3) ∈ (midScatterDims B N E C wf).sKept := by
    simp [ScatterDims.sKept, Shape.kept, List.mem_filter, List.mem_finRange]
  unfold ScatterDims.window
  rw [dif_pos hk]
  rfl

/-- Update (b, e, c) lands on operand element (b', k, c') exactly when b = b', c = c' and the scatter index
    idx[e, 0], read signed and not clamped, is k. -/
theorem scatter_mid_resultIdx_iff (b' : Fin B) (k : Fin N) (c' : Fin C) :
    (midScatterDims B N E C wf).resultIdx? (ix3 b e c) idx = some (ix3 b' k c') ↔
      b = b' ∧ (idx (ix2 e ⟨0, Nat.one_pos⟩)).toInt = (k.val : Int) ∧ c = c' := by
  have s0 := scatter_mid_start0 wf idx b e c
  have s1 := scatter_mid_start1 wf idx b e c
  have s2 := scatter_mid_start2 wf idx b e c
  have w0 := scatter_mid_window0 wf b e c
  have w1 := scatter_mid_window1 wf b e c
  have w2 := scatter_mid_window2 wf b e c
  unfold ScatterDims.resultIdx?
  constructor
  · intro h
    split at h
    · rename_i hall
      have hf := Option.some.inj h
      have e0 : ((midScatterDims B N E C wf).start (ix3 b e c) idx 0
          + (midScatterDims B N E C wf).window (ix3 b e c) 0).toNat = b'.val :=
        congrArg (fun f : (⟨3, ![B, N, C]⟩ : Shape).Idx => (f 0).val) hf
      have e1 : ((midScatterDims B N E C wf).start (ix3 b e c) idx 1
          + (midScatterDims B N E C wf).window (ix3 b e c) 1).toNat = k.val :=
        congrArg (fun f : (⟨3, ![B, N, C]⟩ : Shape).Idx => (f 1).val) hf
      have e2 : ((midScatterDims B N E C wf).start (ix3 b e c) idx 2
          + (midScatterDims B N E C wf).window (ix3 b e c) 2).toNat = c'.val :=
        congrArg (fun f : (⟨3, ![B, N, C]⟩ : Shape).Idx => (f 2).val) hf
      have n1 := (hall 1).1
      rw [s0, w0] at e0
      rw [s1, w1] at e1 n1
      rw [s2, w2] at e2
      refine ⟨Fin.ext (by omega), by omega, Fin.ext (by omega)⟩
    · exact absurd h (by simp)
  · rintro ⟨rfl, hk, rfl⟩
    have hb : b.val < B := b.isLt
    have hkN : k.val < N := k.isLt
    have hc : c.val < C := c.isLt
    have hall : ∀ a, 0 ≤ (midScatterDims B N E C wf).start (ix3 b e c) idx a
          + (midScatterDims B N E C wf).window (ix3 b e c) a
        ∧ (midScatterDims B N E C wf).start (ix3 b e c) idx a
          + (midScatterDims B N E C wf).window (ix3 b e c) a < (⟨3, ![B, N, C]⟩ : Shape).size a := by
      intro a
      match a with
      | ⟨0, _⟩ =>
        show 0 ≤ (midScatterDims B N E C wf).start (ix3 b e c) idx 0 + (midScatterDims B N E C wf).window (ix3 b e c) 0
          ∧ (midScatterDims B N E C wf).start (ix3 b e c) idx 0 + (midScatterDims B N E C wf).window (ix3 b e c) 0 < (B : Int)
        rw [s0, w0]; omega
      | ⟨1, _⟩ =>
        show 0 ≤ (midScatterDims B N E C wf).start (ix3 b e c) idx 1 + (midScatterDims B N E C wf).window (ix3 b e c) 1
          ∧ (midScatterDims B N E C wf).start (ix3 b e c) idx 1 + (midScatterDims B N E C wf).window (ix3 b e c) 1 < (N : Int)
        rw [s1, w1]; omega
      | ⟨2, _⟩ =>
        show 0 ≤ (midScatterDims B N E C wf).start (ix3 b e c) idx 2 + (midScatterDims B N E C wf).window (ix3 b e c) 2
          ∧ (midScatterDims B N E C wf).start (ix3 b e c) idx 2 + (midScatterDims B N E C wf).window (ix3 b e c) 2 < (C : Int)
        rw [s2, w2]; omega
    rw [dif_pos hall]
    refine congrArg some (funext fun a => Fin.ext ?_)
    match a with
    | ⟨0, _⟩ =>
      show ((midScatterDims B N E C wf).start (ix3 b e c) idx 0 + (midScatterDims B N E C wf).window (ix3 b e c) 0).toNat = b.val
      rw [s0, w0]; omega
    | ⟨1, _⟩ =>
      show ((midScatterDims B N E C wf).start (ix3 b e c) idx 1 + (midScatterDims B N E C wf).window (ix3 b e c) 1).toNat = k.val
      rw [s1, w1]; omega
    | ⟨2, _⟩ =>
      show ((midScatterDims B N E C wf).start (ix3 b e c) idx 2 + (midScatterDims B N E C wf).window (ix3 b e c) 2).toNat = c.val
      rw [s2, w2]; omega

/-- The accumulating scatter over the extended reals at (b, k, c): the operand there plus the updates (b, e, c)
    over the positions e whose scatter index is k. -/
theorem hostScatterAdd_mid_apply (x : (⟨3, ![B, N, C]⟩ : Shape).Idx → EReal)
    (upd : (⟨3, ![B, E, C]⟩ : Shape).Idx → EReal) (k : Fin N) :
    Ideal.hostScatterAdd (midScatterDims B N E C wf) x idx upd (ix3 b k c) =
      x (ix3 b k c) + ∑ e' ∈ Finset.univ.filter
        (fun e' : Fin E => (idx (ix2 e' ⟨0, Nat.one_pos⟩)).toInt = (k.val : Int)), upd (ix3 b e' c) := by
  unfold Ideal.hostScatterAdd
  refine congrArg (x (ix3 b k c) + ·) (Eq.symm ?_)
  refine Finset.sum_nbij (fun e' => ix3 b e' c) ?_ ?_ ?_ (fun _ _ => rfl)
  · intro e' he
    rw [Finset.mem_filter] at he ⊢
    exact ⟨Finset.mem_univ _, (scatter_mid_resultIdx_iff wf idx b e' c b k c).mpr ⟨rfl, he.2, rfl⟩⟩
  · intro e₁ _ e₂ _ h
    exact congrFun h (1 : Fin 3)
  · intro j hj
    obtain ⟨b0, e0, c0, rfl⟩ : ∃ (b0 : Fin B) (e0 : Fin E) (c0 : Fin C), j = ix3 b0 e0 c0 :=
      ⟨j 0, j 1, j 2, eq_ix3 j⟩
    have hj' := (Finset.mem_filter.mp (Finset.mem_coe.mp hj)).2
    obtain ⟨h0, h1, h2⟩ := (scatter_mid_resultIdx_iff wf idx b0 e0 c0 b k c).mp hj'
    refine ⟨e0, Finset.mem_coe.mpr (Finset.mem_filter.mpr ⟨Finset.mem_univ _, h1⟩), ?_⟩
    show ix3 b e0 c = ix3 b0 e0 c0
    rw [← h0, ← h2]

end ScatterMid

/-! ## One position of the middle axis, through all of the other two -/

section Slab

/-- The rectangle at offsets (0, k, 0) of sizes (A, 1, C) in [A, N, C] places its own index (i, ., j) at
    (i, k, j). -/
theorem unit_slab_idx {A N C : Nat} (k : Nat)
    (inb : ∀ a, (![0, k, 0] : Fin 3 → Nat) a + (![A, 1, C] : Fin 3 → Nat) a ≤ (⟨3, ![A, N, C]⟩ : Shape).size a)
    (i : Fin A) (u : Fin 1) (j : Fin C) :
    (Rect.unit (s := ⟨3, ![A, N, C]⟩) ![0, k, 0] ![A, 1, C] inb).idx (ix3 i u j) =
      ix3 i ⟨k, Nat.lt_of_succ_le (inb 1)⟩ j := by
  funext a; refine Fin.ext ?_
  have hu : u.val = 0 := by omega
  match a with
  | ⟨0, _⟩ => show 0 + 1 * i.val = i.val; omega
  | ⟨1, _⟩ => show k + 1 * u.val = k; omega
  | ⟨2, _⟩ => show 0 + 1 * j.val = j.val; omega

end Slab

/-! ## The unit middle axis dropped or added by a shape cast -/

section Casts
variable {α : Type}

/-- An [a, 1, b] array cast to [a, b] reads, at (i, j), the operand at (i, 0, j). -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  Idealize.ShloMosaic.shapeCast_apply x h _ _ (by
    rw [Shape.rowMajor_val_three, Shape.rowMajor_val_two]
    show (i.val * 1 + 0) * b + j.val = i.val * b + j.val
    rw [Nat.mul_one, Nat.add_zero])

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  Idealize.ShloMosaic.shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Casts

end Idealize.ShloMosaic.ValueIdx

end
-- ==== Proof.Payloads.lean ====
import proofs.«110159_j22342419874354_2_alg».proof.Proof.Gen.KernelIdeal.Skeleton
import proofs.«110159_j22342419874354_2_alg».proof.Proof.LibMidAxis
import Idealize.ShloMosaic.PureOps.Ideal.Laws
import Idealize.ShloMosaic.Lib.ValueIdx
import Idealize.ShloMosaic.Lib.Pipeline.Value
import Idealize.ShloMosaic.Lib.ValueLayout

/-!
# The payloads of the attention-pooling kernel's body, read at one index

Each pure value the body computes between its loads and stores, at the ideal instance (floats are the extended
reals), read at ONE index of its result: the three-pass split-precision product of a block of rows with the
transposed query matrix, the rows' weights, the running maximum, the two rescaling exponentials, the running sum
and weighted sum, the final quotient and the three initial values.
-/

noncomputable section

namespace Cert.AttnPool.Pay

open Cert.KernelIdeal Cert.KernelIdeal.Gen Idealize.ShloMosaic Idealize.ShloMosaic.ValueIdx

/-! ## Constants -/

/-- The pattern of minus infinity denotes the bottom element. -/
theorem ofBits_neg_inf_f32 : Ideal.ofBits .f32 0xFF800000#32 = (⊥ : EReal) := by simp [Ideal.ofBits, Ideal.ieee]

/-! ## The identity cast and the three initial values -/

/-- A cast to the same shape stores the value itself, at every float instance. -/
theorem pay3_eq {F : FTy → Type} [FloatOps F] (v : FVec F S8x1x1024 .f32) : k0_pay3 (F := F) v = v := by
  unfold k0_pay3
  exact shapeCast_self v _

/-- The running maximum starts at minus infinity. -/
theorem pay5_apply (b : Fin 8) (l : Fin 1024) : k0_pay5 (F := Ideal) (ix3 b (0 : Fin 1) l) = (⊥ : EReal) := by
  unfold k0_pay5
  refine (congrFun (shapeCast_self _ _) _).trans ?_
  exact ofBits_neg_inf_f32

/-- The running sum starts at zero. -/
theorem pay6_apply (b : Fin 8) (l : Fin 1024) : k0_pay6 (F := Ideal) (ix3 b (0 : Fin 1) l) = 0 := by
  unfold k0_pay6
  refine (congrFun (shapeCast_self _ _) _).trans ?_
  exact Ideal.ofBits_zero_f32

/-- The running weighted sum starts at zero. -/
theorem pay7_apply (b : Fin 8) (l : Fin 1024) : k0_pay7 (F := Ideal) (ix3 b (0 : Fin 1) l) = 0 := by
  unfold k0_pay7
  refine (congrFun (shapeCast_self _ _) _).trans ?_
  exact Ideal.ofBits_zero_f32

/-! ## The two exponentials -/

/-- The factor that rescales the old sums: e to the old maximum minus the new one. -/
theorem pay11_apply (x0 : Vec Ideal S8x128x512 .f32) (x1 : Vec Ideal S1024x512 .f32) (ms : Vec Ideal S8x1x1024 .f32)
    (b : Fin 8) (l : Fin 1024) :
    k0_pay11 (F := Ideal) x0 x1 ms (ix3 b (0 : Fin 1) l)
      = Ideal.exp (ms (ix3 b (0 : Fin 1) l) - k0_pay10 (F := Ideal) x0 x1 ms (ix3 b (0 : Fin 1) l)) := rfl

/-- A row's weight against a query: e to its score minus the new maximum of its group. -/
theorem pay12_apply (x0 : Vec Ideal S8x128x512 .f32) (x1 : Vec Ideal S1024x512 .f32) (ms : Vec Ideal S8x1x1024 .f32)
    (b : Fin 8) (r : Fin 128) (l : Fin 1024) :
    k0_pay12 (F := Ideal) x0 x1 ms (ix3 b r l)
      = Ideal.exp (k0_pay8 (F := Ideal) x0 x1 (ix3 b r l) - k0_pay10 (F := Ideal) x0 x1 ms (ix3 b (0 : Fin 1) l)) := by
  unfold k0_pay12
  refine congrArg (fun z => Ideal.exp (k0_pay8 (F := Ideal) x0 x1 (ix3 b r l) - z)) ?_
  refine broadcastTo_apply _ _ (ix3 b r l) (ix3 b (0 : Fin 1) l) fun a => ?_
  match a with
  | ⟨0, _⟩ => rfl
  | ⟨1, _⟩ => rfl
  | ⟨2, _⟩ => rfl

/-! ## The final quotient -/

/-- The stored result: the weighted sum over the sum, the unit middle axis dropped. -/
theorem pay4_apply (A L : Vec Ideal S8x1x1024 .f32) (b : Fin 8) (l : Fin 1024) :
    k0_pay4 (F := Ideal) A L (ix2 b l) = Ideal.div (A (ix3 b (0 : Fin 1) l)) (L (ix3 b (0 : Fin 1) l)) := by
  unfold k0_pay4
  exact shapeCast_a1b_ab_apply _ _ b l

/-! ## One coordinate inserted into a reduced index -/

/-- The middle coordinate put back into an index of the [8, 1024] sums over the rows. -/
theorem lift_rows (h : S8x128x1024.Reduces [1] S8x1024) (b : Fin 8) (l : Fin 1024) (r : Fin 128) :
    h.lift (ix2 b l) r = ix3 b r l := by
  funext a
  refine Fin.ext ?_
  match a with
  | ⟨0, _⟩ => rfl
  | ⟨1, _⟩ => rfl
  | ⟨2, _⟩ => rfl

/-- The last coordinate put back into an index of the [8, 128] sums over the features. -/
theorem lift_feat (h : S8x128x512.Reduces [2] S8x128) (b : Fin 8) (r : Fin 128) (d : Fin 512) :
    h.lift (ix2 b r) d = ix3 b r d := by
  funext a
  refine Fin.ext ?_
  match a with
  | ⟨0, _⟩ => rfl
  | ⟨1, _⟩ => rfl
  | ⟨2, _⟩ => rfl

/-- A sum over the rows of a group, the unit middle axis added back. -/
theorem rowsum_apply (p : FVec Ideal S8x128x1024 .f32) (h : S8x128x1024.Reduces [1] S8x1024)
    (hc : S8x1024.ShapeCasts S8x1x1024) (hφ : FKind.Formats .f32)
    (hacc : (0x00000000#32 : BitVec 32) = FKind.add.neutral .f32 hφ) (b : Fin 8) (l : Fin 1024) :
    shapeCast S8x1x1024 (multiReduction (F := Ideal) .add [1] S8x1024 p 0x00000000#32 h hφ hacc) hc (ix3 b (0 : Fin 1) l)
      = ∑ r : Fin 128, p (ix3 b r l) := by
  refine (shapeCast_ab_a1b_apply _ hc b (0 : Fin 1) l).trans ?_
  refine (Ideal.multiReduction_add_single p _ h hφ hacc (ix2 b l)).trans ?_
  exact Finset.sum_congr rfl fun r _ => congrArg p (lift_rows h b l r)

/-! ## The running sum and the running weighted sum -/

/-- The new running sum: the old one rescaled, plus the group's weights summed over its rows. -/
theorem pay1_apply (a : FVec Ideal S8x1x1024 .f32) (p : FVec Ideal S8x128x1024 .f32) (ls : Vec Ideal S8x1x1024 .f32)
    (b : Fin 8) (l : Fin 1024) :
    k0_pay1 (F := Ideal) a p ls (ix3 b (0 : Fin 1) l)
      = a (ix3 b (0 : Fin 1) l) * ls (ix3 b (0 : Fin 1) l) + ∑ r : Fin 128, p (ix3 b r l) := by
  unfold k0_pay1
  refine (congrFun (shapeCast_self _ _) _).trans ?_
  exact congrArg (a (ix3 b (0 : Fin 1) l) * ls (ix3 b (0 : Fin 1) l) + ·) (rowsum_apply p _ _ _ _ b l)

/-- A column of row values broadcast along the queries reads the row's value. -/
theorem bcast_col_apply (xw : FVec Ideal S8x128x1 .f32) (h : S8x128x1.Broadcasts S8x128x1024)
    (b : Fin 8) (r : Fin 128) (l : Fin 1024) :
    broadcastTo S8x128x1024 xw h (ix3 b r l) = xw (ix3 b r (0 : Fin 1)) := by
  refine broadcastTo_apply xw h (ix3 b r l) (ix3 b r (0 : Fin 1)) fun a => ?_
  match a with
  | ⟨0, _⟩ => rfl
  | ⟨1, _⟩ => rfl
  | ⟨2, _⟩ => rfl

/-- The new running weighted sum: the old one rescaled, plus the rows' values weighted and summed. -/
theorem pay2_apply (xw : FVec Ideal S8x128x1 .f32) (a : FVec Ideal S8x1x1024 .f32) (p : FVec Ideal S8x128x1024 .f32)
    (ws : Vec Ideal S8x1x1024 .f32) (b : Fin 8) (l : Fin 1024) :
    k0_pay2 (F := Ideal) xw a p ws (ix3 b (0 : Fin 1) l)
      = a (ix3 b (0 : Fin 1) l) * ws (ix3 b (0 : Fin 1) l) + ∑ r : Fin 128, p (ix3 b r l) * xw (ix3 b r (0 : Fin 1)) := by
  unfold k0_pay2
  refine (congrFun (shapeCast_self _ _) _).trans ?_
  refine congrArg (a (ix3 b (0 : Fin 1) l) * ws (ix3 b (0 : Fin 1) l) + ·) ?_
  refine (rowsum_apply _ _ _ _ _ b l).trans ?_
  exact Finset.sum_congr rfl fun r _ => congrArg (p (ix3 b r l) * ·) (bcast_col_apply xw _ b r l)

/-! ## The rows' values -/

/-- A row's value: its features against the weight vector. -/
theorem pay9_apply (x0 : Vec Ideal S8x128x512 .f32) (x2 : Vec Ideal S1x512 .f32) (b : Fin 8) (r : Fin 128) :
    k0_pay9 (F := Ideal) x0 x2 (ix3 b r (0 : Fin 1)) = ∑ d : Fin 512, x0 (ix3 b r d) * x2 (ix2 (0 : Fin 1) d) := by
  unfold k0_pay9
  refine (shapeCast_apply _ _ (ix3 b r (0 : Fin 1)) (ix2 b r) (by
    rw [Shape.rowMajor_val_three, Shape.rowMajor_val_two]
    show b.val * 128 + r.val = (b.val * 128 + r.val) * 1 + 0
    omega)).trans ?_
  refine (Ideal.multiReduction_add_single _ _ _ _ _ (ix2 b r)).trans ?_
  refine Finset.sum_congr rfl fun d _ => ?_
  refine (congrArg _ (lift_feat _ b r d)).trans ?_
  refine congrArg (x0 (ix3 b r d) * ·) ?_
  refine (broadcastTo_apply _ _ (ix3 b r d) (ix3 (0 : Fin 1) (0 : Fin 1) d) fun a => ?_).trans ?_
  · match a with
    | ⟨0, _⟩ => rfl
    | ⟨1, _⟩ => rfl
    | ⟨2, _⟩ => rfl
  · exact shapeCast_ab_1ab_apply x2 _ (0 : Fin 1) (0 : Fin 1) d

/-! ## The running maximum -/

/-- The new running maximum: the old one against the largest score of the group's rows. -/
theorem pay10_apply (x0 : Vec Ideal S8x128x512 .f32) (x1 : Vec Ideal S1024x512 .f32) (ms : Vec Ideal S8x1x1024 .f32)
    (b : Fin 8) (l : Fin 1024) :
    k0_pay10 (F := Ideal) x0 x1 ms (ix3 b (0 : Fin 1) l)
      = max (ms (ix3 b (0 : Fin 1) l))
          ((Finset.univ : Finset (Fin 128)).fold max (⊥ : EReal) (fun r => k0_pay8 (F := Ideal) x0 x1 (ix3 b r l))) := by
  unfold k0_pay10
  refine congrArg (max (ms (ix3 b (0 : Fin 1) l))) ?_
  refine (shapeCast_ab_a1b_apply _ _ b (0 : Fin 1) l).trans ?_
  refine (Ideal.multiReduction_maximumf_single _ _ _ _ _ (ix2 b l)).trans ?_
  have hf : (k0_pay8 (F := Ideal) x0 x1 ∘ (reduces_S8x128x1024_S8x1024).lift (ix2 b l))
      = fun r : Fin 128 => k0_pay8 (F := Ideal) x0 x1 (ix3 b r l) :=
    funext fun r => congrArg (k0_pay8 (F := Ideal) x0 x1) (lift_rows _ b l r)
  exact (congrArg (fun f => Finset.fold max (FloatOps.ofBits (F := Ideal) .f32 0xFF800000#32) f Finset.univ) hf).trans
    (congrArg (fun z : EReal => Finset.fold max z (fun r : Fin 128 => k0_pay8 (F := Ideal) x0 x1 (ix3 b r l)) Finset.univ)
      ofBits_neg_inf_f32)

/-! ## The scores: three passes of the matrix unit -/

/-- The dimension numbers of the product: [1024, 512] against [512, 1024], contracting the 512 features. -/
abbrev scoreDims : DotDims S1024x512 S512x1024 S1024x1024 := dot_S1024x512_S512x1024_S1024x1024_1_0_0_1_n_n

theorem scoreDims_lhs0 (j : S1024x1024.Idx) (q : scoreDims.contr.Idx) : (scoreDims.lhsIdx j q 0).val = (j 0).val := by
  unfold DotDims.lhsIdx
  rw [dif_neg (show ¬(0 : Fin S1024x512.rank) ∈ scoreDims.lhsBatch by decide),
    dif_pos (show (0 : Fin S1024x512.rank) ∈ scoreDims.lhsNonContracting by decide)]
  rfl
theorem scoreDims_lhs1 (j : S1024x1024.Idx) (q : scoreDims.contr.Idx) :
    (scoreDims.lhsIdx j q 1).val = (q ⟨0, by decide⟩).val :=
  scoreDims.lhsIdx_val_of_single rfl j q
theorem scoreDims_rhs0 (j : S1024x1024.Idx) (q : scoreDims.contr.Idx) :
    (scoreDims.rhsIdx j q 0).val = (q ⟨0, by decide⟩).val :=
  scoreDims.rhsIdx_val_of_single rfl j q
theorem scoreDims_rhs1 (j : S1024x1024.Idx) (q : scoreDims.contr.Idx) : (scoreDims.rhsIdx j q 1).val = (j 1).val := by
  unfold DotDims.rhsIdx
  rw [dif_neg (show ¬(1 : Fin S512x1024.rank) ∈ scoreDims.rhsBatch by decide),
    dif_pos (show (1 : Fin S512x1024.rank) ∈ scoreDims.rhsNonContracting by decide)]
  rfl

/-- One pass into zero read at (R, l): the sum over the features of the left operand's row R against the right
    operand's column l. -/
theorem mm_apply (A : FVec Ideal S1024x512 .bf16) (B : FVec Ideal S512x1024 .bf16) (R l : Fin 1024) :
    matmul (F := Ideal) scoreDims none A B (constant (F := Ideal) S1024x1024 .f32 0x00000000#32) (ix2 R l)
      = ∑ d : Fin 512, A (ix2 R d) * B (ix2 d l) := by
  refine (Ideal.matmul_constant_zero_apply scoreDims none A B (ix2 R l)).trans ?_
  rw [← Equiv.sum_comp (contrEquiv1 scoreDims 512 rfl rfl).symm]
  refine Finset.sum_congr rfl fun k _ => ?_
  have hk := contrEquiv1_symm_val scoreDims 512 rfl rfl k
  have el : scoreDims.lhsIdx (ix2 R l) ((contrEquiv1 scoreDims 512 rfl rfl).symm k) = ix2 R k :=
    funext fun a => Fin.ext (by
      match a with
      | ⟨0, _⟩ => exact scoreDims_lhs0 _ _
      | ⟨1, _⟩ => exact (scoreDims_lhs1 _ _).trans hk)
  have er : scoreDims.rhsIdx (ix2 R l) ((contrEquiv1 scoreDims 512 rfl rfl).symm k) = ix2 k l :=
    funext fun a => Fin.ext (by
      match a with
      | ⟨0, _⟩ => exact (scoreDims_rhs0 _ _).trans hk
      | ⟨1, _⟩ => exact scoreDims_rhs1 _ _)
  rw [el, er]

/-- Row r of group b in the block flattened to 1024 rows. -/
abbrev flatRow (b : Fin 8) (r : Fin 128) : Fin 1024 := ⟨128 * b.val + r.val, by omega⟩

/-- The block flattened to [1024, 512] reads, at row 128 b + r, the block at (b, r). -/
theorem flat_apply (x0 : Vec Ideal S8x128x512 .f32) (h : S8x128x512.ShapeCasts S1024x512)
    (b : Fin 8) (r : Fin 128) (d : Fin 512) :
    shapeCast S1024x512 x0 h (ix2 (flatRow b r) d) = x0 (ix3 b r d) :=
  shapeCast_apply x0 h _ _ (by
    rw [Shape.rowMajor_val_three, Shape.rowMajor_val_two]
    show (b.val * 128 + r.val) * 512 + d.val = (128 * b.val + r.val) * 512 + d.val
    omega)

/-- The [1024, 1024] scores cast back to [8, 128, 1024] read, at (b, r, l), row 128 b + r. -/
theorem unflat_apply (v : FVec Ideal S1024x1024 .f32) (h : S1024x1024.ShapeCasts S8x128x1024)
    (b : Fin 8) (r : Fin 128) (l : Fin 1024) :
    shapeCast S8x128x1024 v h (ix3 b r l) = v (ix2 (flatRow b r) l) :=
  shapeCast_apply v h _ _ (by
    rw [Shape.rowMajor_val_three, Shape.rowMajor_val_two]
    show (128 * b.val + r.val) * 1024 + l.val = (b.val * 128 + r.val) * 1024 + l.val
    omega)

/-- A row's score against a query: the features' products summed, and the two residual passes of the split
    precision, whose factors are a value minus itself. -/
theorem pay8_apply (x0 : Vec Ideal S8x128x512 .f32) (x1 : Vec Ideal S1024x512 .f32)
    (b : Fin 8) (r : Fin 128) (l : Fin 1024) :
    k0_pay8 (F := Ideal) x0 x1 (ix3 b r l)
      = (∑ d : Fin 512, x0 (ix3 b r d) * x1 (ix2 l d))
        + (∑ d : Fin 512, (x0 (ix3 b r d) - x0 (ix3 b r d)) * x1 (ix2 l d))
        + (∑ d : Fin 512, x0 (ix3 b r d) * (x1 (ix2 l d) - x1 (ix2 l d))) := by
  unfold k0_pay8
  refine (unflat_apply _ _ b r l).trans ?_
  refine (addf_apply _ _ _).trans (congrArg₂ (· + ·) ((addf_apply _ _ _).trans (congrArg₂ (· + ·) ?_ ?_)) ?_)
  · refine (mm_apply _ _ (flatRow b r) l).trans (Finset.sum_congr rfl fun d _ => congrArg₂ (· * ·) ?_ ?_)
    · exact flat_apply x0 _ b r d
    · exact transpose_ix2_apply _ _ d l
  · refine (mm_apply _ _ (flatRow b r) l).trans (Finset.sum_congr rfl fun d _ => congrArg₂ (· * ·) ?_ ?_)
    · exact congrArg₂ (· - ·) (flat_apply x0 _ b r d) (flat_apply x0 _ b r d)
    · exact transpose_ix2_apply _ _ d l
  · refine (mm_apply _ _ (flatRow b r) l).trans (Finset.sum_congr rfl fun d _ => congrArg₂ (· * ·) ?_ ?_)
    · exact flat_apply x0 _ b r d
    · exact transpose_ix2_apply _ _ d l

end Cert.AttnPool.Pay

end
-- ==== Proof.Blocks.lean ====
import proofs.«110159_j22342419874354_2_alg».proof.Proof.Gen.KernelIdeal.Frame
import Idealize.ShloMosaic.Lib.Pipeline.Value
import Idealize.ShloMosaic.Lib.ValueIdx

/-!
# The input windows' blocks, read off the argument arrays

At grid point `t`, of coordinates `(t / 32, t % 32)`, the first window's block is the `8 × 128 × 512` tile of
the first array whose corner is `(8 (t / 32), 128 (t % 32), 0)`; the second and third windows' blocks are the
whole second and third arrays at every point.
-/

noncomputable section

namespace Cert.KernelIdeal.Blocks

open Cert.KernelIdeal Cert.KernelIdeal.Gen Idealize.ShloMosaic Idealize.ShloMosaic.ValueIdx Idealize.ShloMosaic.TcCoe

variable {F : FTy → Type} [FloatOps F] (m : (ℓ : Loc nD τ sig) → Buf (Elt F) ℓ)

/-- The first window's block index at point `t`: the point's two grid coordinates, then 0. -/
theorem index0 : ∀ t : Fin cfg0.N,
    win0_0.index t 0 = t.val / 32 ∧ win0_0.index t 1 = t.val % 32 ∧ win0_0.index t 2 = 0 :=
  (by decide +kernel : ∀ t : Fin grid0.N,
    win0_0.index t 0 = t.val / 32 ∧ win0_0.index t 1 = t.val % 32 ∧ win0_0.index t 2 = 0)

/-- The second window's block index is `(0, 0)` at every point. -/
theorem index1 : ∀ t : Fin cfg0.N, win0_1.index t 0 = 0 ∧ win0_1.index t 1 = 0 :=
  (by decide +kernel : ∀ t : Fin grid0.N, win0_1.index t 0 = 0 ∧ win0_1.index t 1 = 0)

/-- The third window's block index is `(0, 0)` at every point. -/
theorem index2 : ∀ t : Fin cfg0.N, win0_2.index t 0 = 0 ∧ win0_2.index t 1 = 0 :=
  (by decide +kernel : ∀ t : Fin grid0.N, win0_2.index t 0 = 0 ∧ win0_2.index t 1 = 0)

/-- Entry `(b, r, d)` of the first window's block at point `t` is entry
    `(8 (t / 32) + b, 128 (t % 32) + r, d)` of the first array. -/
theorem iblk0_apply (c : Dev nD) (t : Fin cfg0.N) (b : Fin 8) (r : Fin 128) (d : Fin 512) :
    (iblk m c 0 t : Vec F S8x128x512 .f32) (ix3 b r d)
      = m ((c.tc : Thread nD τ).loc main_arg0)
          (ix3 (⟨8 * (t.val / 32) + b.val, by have := t.isLt; have hN : cfg0.N = 64 := N_0; omega⟩ : Fin 16)
               (⟨128 * (t.val % 32) + r.val, by omega⟩ : Fin 4096) d) := by
  obtain ⟨h0, h1, h2⟩ := index0 t
  unfold iblk
  rw [View.read_apply]
  show V m c main_arg0 _ = m (c.tc.loc main_arg0) _
  unfold V
  congr 1
  funext a
  apply Fin.ext
  match a with
  | ⟨0, _⟩ => show win0_0.index t 0 * 8 + 1 * b.val = 8 * (t.val / 32) + b.val; rw [h0]; omega
  | ⟨1, _⟩ => show win0_0.index t 1 * 128 + 1 * r.val = 128 * (t.val % 32) + r.val; rw [h1]; omega
  | ⟨2, _⟩ => show win0_0.index t 2 * 512 + 1 * d.val = d.val; rw [h2]; omega

/-- The second window's block is the whole second array at every point. -/
theorem iblk1_eq (c : Dev nD) (t : Fin cfg0.N) :
    (iblk m c 1 t : Vec F S1024x512 .f32) = m ((c.tc : Thread nD τ).loc main_arg1) := by
  obtain ⟨h0, h1⟩ := index1 t
  funext j
  unfold iblk
  rw [View.read_apply]
  show V m c main_arg1 _ = m (c.tc.loc main_arg1) _
  unfold V
  congr 1
  funext a
  apply Fin.ext
  match a with
  | ⟨0, _⟩ => show win0_1.index t 0 * 1024 + 1 * (j 0).val = (j 0).val; rw [h0]; omega
  | ⟨1, _⟩ => show win0_1.index t 1 * 512 + 1 * (j 1).val = (j 1).val; rw [h1]; omega

/-- The third window's block is the whole third array at every point. -/
theorem iblk2_eq (c : Dev nD) (t : Fin cfg0.N) :
    (iblk m c 2 t : Vec F S1x512 .f32) = m ((c.tc : Thread nD τ).loc main_arg2) := by
  obtain ⟨h0, h1⟩ := index2 t
  funext j
  unfold iblk
  rw [View.read_apply]
  show V m c main_arg2 _ = m (c.tc.loc main_arg2) _
  unfold V
  congr 1
  funext a
  apply Fin.ext
  match a with
  | ⟨0, _⟩ => show win0_2.index t 0 * 1 + 1 * (j 0).val = (j 0).val; rw [h0]; omega
  | ⟨1, _⟩ => show win0_2.index t 1 * 512 + 1 * (j 1).val = (j 1).val; rw [h1]; omega

end Cert.KernelIdeal.Blocks

end
-- ==== Proof.LibTileSums.lean ====
/-
  Two rearrangements of a finite sum in any commutative additive monoid (so also over the extended reals, where
  no finiteness is needed for them):

  * a sum over `2n` terms folded in halves: adding term `k` to term `n + k` first and summing the `n` pairs
    gives the whole sum;
  * a sum over `T * n` terms taken tile by tile: summing each run of `n` consecutive terms and then the `T` runs
    gives the whole sum.
-/
import Mathlib.Algebra.BigOperators.Fin
import Mathlib.Data.Fintype.BigOperators
import Mathlib.Logic.Equiv.Fin.Basic

namespace TileSums

open Finset

variable {M : Type*} [AddCommMonoid M]

/-- Folding the two halves of a sum of `n + n` terms pairwise: `∑ₖ (f k + f (n + k)) = ∑ f`. -/
theorem sum_fold_halves (n : ℕ) (f : Fin (n + n) → M) :
    ∑ k : Fin n, (f (Fin.castAdd n k) + f (Fin.natAdd n k)) = ∑ d : Fin (n + n), f d := by
  rw [Finset.sum_add_distrib, Fin.sum_univ_add]

/-- The same with the two terms named by their positions `k` and `n + k`. -/
theorem sum_fold_halves_val (n : ℕ) (f : Fin (n + n) → M) :
    ∑ k : Fin n, (f ⟨k.val, by omega⟩ + f ⟨n + k.val, by omega⟩) = ∑ d : Fin (n + n), f d :=
  sum_fold_halves n f

/-- A sum of `T * n` terms taken in `T` consecutive tiles of `n`: `∑ⱼ ∑ᵢ f (n j + i) = ∑ f`. -/
theorem sum_tiles (T n : ℕ) (f : Fin (T * n) → M) :
    ∑ j : Fin T, ∑ i : Fin n, f (finProdFinEquiv (j, i)) = ∑ x : Fin (T * n), f x := by
  rw [← Fintype.sum_prod_type (f := fun p : Fin T × Fin n => f (finProdFinEquiv p))]
  exact Equiv.sum_comp finProdFinEquiv f

/-- Tile `j`'s term `i` is term `n j + i` of the whole. -/
theorem tile_val (T n : ℕ) (j : Fin T) (i : Fin n) :
    ((finProdFinEquiv (j, i) : Fin (T * n)) : ℕ) = n * j.val + i.val := by
  simp only [finProdFinEquiv_apply_val]; omega

/-- Summing over `range (k + 1)` of a function of naturals, as a sum over `Fin (k + 1)`. -/
theorem sum_range_eq_sum_fin (k : ℕ) (g : ℕ → M) : ∑ j ∈ Finset.range k, g j = ∑ j : Fin k, g j.val :=
  (Fin.sum_univ_eq_sum_range g k).symm

end TileSums
-- ==== Proof.TileIndex.lean ====
import Mathlib.Data.Real.Basic
import Mathlib.Tactic.NormNum
import proofs.«110159_j22342419874354_2_alg».proof.Proof.LibTileSums

/-!
# The 4096 positions, tile by tile

Position `128 j + r` (tile `j` of 32, row `r` of 128) runs through all of `0 … 4095` exactly once, so a sum
over the positions is the sum over the tiles of the sums over a tile's rows.
-/

namespace Cert.AttnPool.TileIndex

open Finset

/-- Position `128 j + r`, taken modulo 4096 so that it is defined for every natural `j`. -/
def tileIdx (j : ℕ) (r : Fin 128) : Fin 4096 := ⟨(128 * j + r.val) % 4096, Nat.mod_lt _ (by norm_num)⟩

/-- For a tile number below 32 no reduction happens. -/
theorem tileIdx_val (j : ℕ) (hj : j < 32) (r : Fin 128) : (tileIdx j r).val = 128 * j + r.val := by
  have := r.isLt
  show (128 * j + r.val) % 4096 = 128 * j + r.val
  exact Nat.mod_eq_of_lt (by omega)

/-- Summing tile by tile is summing over all 4096 positions. -/
theorem sum_tileIdx (g : Fin 4096 → ℝ) :
    ∑ j ∈ Finset.range 32, ∑ r : Fin 128, g (tileIdx j r) = ∑ t : Fin 4096, g t := by
  rw [TileSums.sum_range_eq_sum_fin 32 (fun j => ∑ r : Fin 128, g (tileIdx j r))]
  rw [← TileSums.sum_tiles 32 128 (fun x : Fin (32 * 128) => g x)]
  refine Finset.sum_congr rfl fun j _ => Finset.sum_congr rfl fun r _ => ?_
  congr 1
  apply Fin.ext
  rw [tileIdx_val j.val j.isLt r, TileSums.tile_val]

end Cert.AttnPool.TileIndex
-- ==== Proof.LibFiniteSums.lean ====
import Mathlib
import Idealize.ShloMosaic.PureOps.Ideal

/-!
# Real-valued extended reals: closure under the arithmetic of a normalisation layer, and the variance identity

An extended real is *real* when it is the image of a real number. Real extended reals are closed under
sums, differences, products, finite sums, the maximum with zero, division by a nonzero real, and the
reciprocal square root of a positive number. On real data the two textbook forms of the (biased) variance
agree: the mean of the squared deviations equals the mean of the squares minus the square of the mean, and
since the former is nonnegative, clamping the latter at zero changes nothing.
-/

noncomputable section

open scoped BigOperators

namespace Idealize.ShloMosaic.FiniteSums

open Idealize.ShloMosaic

/-- An extended real that is (the image of) a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal 0 := ⟨0, rfl⟩

/-- One is real. -/
theorem isReal_one : IsReal 1 := ⟨1, rfl⟩

/-- An extended real is real exactly when it is neither +∞ nor -∞. -/
theorem isReal_iff (x : EReal) : IsReal x ↔ x ≠ ⊤ ∧ x ≠ ⊥ := by
  induction x using EReal.rec with
  | bot => exact ⟨fun ⟨r, h⟩ => absurd h (EReal.coe_ne_bot r).symm, fun h => absurd rfl h.2⟩
  | top => exact ⟨fun ⟨r, h⟩ => absurd h (EReal.coe_ne_top r).symm, fun h => absurd rfl h.1⟩
  | coe r => exact ⟨fun _ => ⟨EReal.coe_ne_top r, EReal.coe_ne_bot r⟩, fun _ => ⟨r, rfl⟩⟩

/-- A real extended real is not +∞. -/
theorem IsReal.ne_top {x : EReal} (h : IsReal x) : x ≠ ⊤ := ((isReal_iff x).1 h).1

/-- A real extended real is not -∞. -/
theorem IsReal.ne_bot {x : EReal} (h : IsReal x) : x ≠ ⊥ := ((isReal_iff x).1 h).2

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a real is real. -/
theorem IsReal.neg {x : EReal} (hx : IsReal x) : IsReal (-x) := by
  obtain ⟨a, rfl⟩ := hx; exact ⟨-a, (EReal.coe_neg a).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The maximum of two reals is real. -/
theorem isReal_max {x y : EReal} (hx : IsReal x) (hy : IsReal y) : IsReal (max x y) := by
  rcases max_choice x y with h | h <;> rw [h] <;> assumption

/-- The maximum of a real with zero is real. -/
theorem isReal_max_zero {x : EReal} (hx : IsReal x) : IsReal (max x 0) := isReal_max hx isReal_zero

/-- The maximum with zero is nonnegative. -/
theorem zero_le_max_zero (x : EReal) : 0 ≤ max x 0 := le_max_right x 0

/-- The coercion of the reals into the extended reals commutes with finite sums. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A sum of reals over a whole finite index type is real. -/
theorem IsReal.sum_univ {ι : Type*} [Fintype ι] (f : ι → EReal) (hf : ∀ i, IsReal (f i)) :
    IsReal (∑ i, f i) := IsReal.sum Finset.univ f fun i _ => hf i

/-- A family of real extended reals is the image of a family of real numbers. -/
theorem exists_real_family {ι : Type*} (f : ι → EReal) (hf : ∀ i, IsReal (f i)) :
    ∃ g : ι → ℝ, ∀ i, f i = ((g i : ℝ) : EReal) := ⟨fun i => (hf i).choose, fun i => (hf i).choose_spec⟩

/-- The quotient of a real number by a nonzero real number, as the programs' division computes it on
    extended reals, is the real quotient. -/
theorem div_coe_coe (a N : ℝ) (hN : N ≠ 0) : Ideal.div (a : EReal) (N : EReal) = ((a / N : ℝ) : EReal) := by
  rw [Ideal.div_coe hN, ← EReal.coe_mul, mul_one_div]

/-- A real divided by a nonzero real number is real. -/
theorem IsReal.div_coe {x : EReal} (hx : IsReal x) {N : ℝ} (hN : N ≠ 0) : IsReal (Ideal.div x (N : EReal)) := by
  obtain ⟨a, rfl⟩ := hx; exact ⟨a / N, div_coe_coe a N hN⟩

/-- A real divided by 25000 is real. -/
theorem IsReal.div_25000 {x : EReal} (hx : IsReal x) : IsReal (Ideal.div x ((25000 : ℝ) : EReal)) :=
  hx.div_coe (by norm_num)

/-- The reciprocal square root of a positive real number is the real number `(√r)⁻¹`, which is positive. -/
theorem rsqrt_coe_pos {r : ℝ} (hr : 0 < r) :
    Ideal.rsqrt (r : EReal) = (((Real.sqrt r)⁻¹ : ℝ) : EReal) ∧ 0 < (Real.sqrt r)⁻¹ := by
  refine ⟨?_, inv_pos.2 (Real.sqrt_pos.2 hr)⟩
  rw [Ideal.rsqrt_coe, if_neg (not_lt.2 hr.le), if_neg hr.ne']

/-- The reciprocal square root of a positive real extended real is real and positive. -/
theorem IsReal.rsqrt_pos {x : EReal} (hx : IsReal x) (h : 0 < x) :
    IsReal (Ideal.rsqrt x) ∧ 0 < Ideal.rsqrt x := by
  obtain ⟨r, rfl⟩ := hx
  have hr : 0 < r := by exact_mod_cast h
  obtain ⟨e, hp⟩ := rsqrt_coe_pos hr
  rw [e]
  exact ⟨⟨_, rfl⟩, by exact_mod_cast hp⟩

/-- A nonnegative real plus a positive real is a positive real: the argument of the reciprocal square root
    in a normalisation layer (a clamped variance plus a positive constant). -/
theorem IsReal.add_pos {x y : EReal} (hx : IsReal x) (hy : IsReal y) (h0 : 0 ≤ x) (h1 : 0 < y) :
    IsReal (x + y) ∧ 0 < x + y := by
  refine ⟨hx.add hy, ?_⟩
  obtain ⟨a, rfl⟩ := hx; obtain ⟨b, rfl⟩ := hy
  have ha : 0 ≤ a := by exact_mod_cast h0
  have hb : 0 < b := by exact_mod_cast h1
  rw [← EReal.coe_add]
  exact_mod_cast add_pos_of_nonneg_of_pos ha hb

/-! ## The variance identity -/

/-- Over the real numbers: with `N` the number of terms and `m` the mean, the mean of the squared deviations
    from `m` is the mean of the squares minus `m²`. -/
theorem real_variance {ι : Type*} [Fintype ι] (g : ι → ℝ) (N : ℝ) (hN : (Fintype.card ι : ℝ) = N) (h0 : N ≠ 0) :
    (∑ i, (g i - (∑ j, g j) / N) * (g i - (∑ j, g j) / N)) / N
      = (∑ i, g i * g i) / N - ((∑ j, g j) / N) * ((∑ j, g j) / N) := by
  have h1 : ∑ i, (g i - (∑ j, g j) / N) * (g i - (∑ j, g j) / N)
      = (∑ i, g i * g i) - 2 * ((∑ j, g j) / N) * (∑ j, g j) + N * ((∑ j, g j) / N * ((∑ j, g j) / N)) := by
    have e : ∀ i, (g i - (∑ j, g j) / N) * (g i - (∑ j, g j) / N)
        = g i * g i - 2 * ((∑ j, g j) / N) * g i + ((∑ j, g j) / N * ((∑ j, g j) / N)) := fun i => by ring
    simp only [e, Finset.sum_add_distrib, Finset.sum_sub_distrib, ← Finset.mul_sum, Finset.sum_const,
      Finset.card_univ, nsmul_eq_mul, hN]
    ring
  rw [h1]
  field_simp
  ring

/-- Over the real numbers the mean of the squared deviations is nonnegative. -/
theorem real_variance_nonneg {ι : Type*} [Fintype ι] (g : ι → ℝ) (m N : ℝ) (hN : (Fintype.card ι : ℝ) = N) :
    0 ≤ (∑ i, (g i - m) * (g i - m)) / N :=
  div_nonneg (Finset.sum_nonneg fun i _ => mul_self_nonneg _) (hN ▸ Nat.cast_nonneg _)

/-- **The variance identity on real data, in extended-real arithmetic.** For a family `f` of real extended
    reals over a finite index type with `N` elements (`N ≠ 0`), with the mean `μ = (∑ f) / N`: the mean of
    the squared deviations from `μ` equals the mean of the squares minus `μ²`, clamped below at zero. Every
    division is the programs' division of extended reals by the real number `N`. -/
theorem variance_identity {ι : Type*} [Fintype ι] (f : ι → EReal) (hf : ∀ i, IsReal (f i))
    (N : ℝ) (hN : (Fintype.card ι : ℝ) = N) (h0 : N ≠ 0) :
    Ideal.div (∑ i, (f i - Ideal.div (∑ j, f j) (N : EReal)) * (f i - Ideal.div (∑ j, f j) (N : EReal))) (N : EReal)
      = max (Ideal.div (∑ i, f i * f i) (N : EReal)
              - Ideal.div (∑ j, f j) (N : EReal) * Ideal.div (∑ j, f j) (N : EReal)) 0 := by
  obtain ⟨g, hg⟩ := exists_real_family f hf
  have hS : (∑ j, f j) = (((∑ j, g j : ℝ)) : EReal) := by
    rw [coe_finset_sum]; exact Finset.sum_congr rfl fun j _ => hg j
  have hμ : Ideal.div (∑ j, f j) (N : EReal) = (((∑ j, g j) / N : ℝ) : EReal) := by
    rw [hS, div_coe_coe _ _ h0]
  have hQ : (∑ i, f i * f i) = ((∑ i, g i * g i : ℝ) : EReal) := by
    rw [coe_finset_sum]; exact Finset.sum_congr rfl fun i _ => by rw [hg i, EReal.coe_mul]
  have hD : (∑ i, (f i - Ideal.div (∑ j, f j) (N : EReal)) * (f i - Ideal.div (∑ j, f j) (N : EReal)))
      = ((∑ i, (g i - (∑ j, g j) / N) * (g i - (∑ j, g j) / N) : ℝ) : EReal) := by
    rw [coe_finset_sum]
    exact Finset.sum_congr rfl fun i _ => by rw [hμ, hg i, ← EReal.coe_sub, ← EReal.coe_mul]
  rw [hD, hQ, hμ, div_coe_coe _ _ h0, div_coe_coe _ _ h0, ← EReal.coe_mul, ← EReal.coe_sub,
    real_variance g N hN h0]
  have hB : 0 ≤ (∑ i, g i * g i) / N - (∑ j, g j) / N * ((∑ j, g j) / N) :=
    (real_variance g N hN h0) ▸ real_variance_nonneg g _ N hN
  exact (max_eq_left (EReal.coe_nonneg.2 hB)).symm

/-- The variance identity over `Fin n`, `n > 0`, with `N = n` as a real number. -/
theorem variance_identity_fin {n : ℕ} (hn : 0 < n) (f : Fin n → EReal) (hf : ∀ i, IsReal (f i)) :
    Ideal.div (∑ i, (f i - Ideal.div (∑ j, f j) ((n : ℝ) : EReal)) * (f i - Ideal.div (∑ j, f j) ((n : ℝ) : EReal)))
        ((n : ℝ) : EReal)
      = max (Ideal.div (∑ i, f i * f i) ((n : ℝ) : EReal)
              - Ideal.div (∑ j, f j) ((n : ℝ) : EReal) * Ideal.div (∑ j, f j) ((n : ℝ) : EReal)) 0 :=
  variance_identity f hf (n : ℝ) (by simp) (by exact_mod_cast hn.ne')

end Idealize.ShloMosaic.FiniteSums
-- ==== Proof.LibOnlineSoftmax.lean ====
import Mathlib
import Idealize.ShloMosaic.PureOps.Ideal
import proofs.«110159_j22342419874354_2_alg».proof.Proof.LibFiniteSums

/-!
# A running ("online") softmax over tiles of any width, on the extended reals

Scores arrive tile by tile, W rows at a time; the running state is the maximum of the scores seen so far, the
sum of the exponentials of the scores shifted by that maximum, and the same sum weighted by the values; when a
tile raises the maximum from m to m' the old sums are rescaled by exp (m - m'). On real scores and values,
after at least one tile, the quotient of the weighted sum by the plain sum is the softmax-weighted average of
the values over all rows of all tiles: the shift by the maximum cancels between numerator and denominator.
Also: a dot product of real vectors over any finite index type, computed in the extended reals, is the real
dot product, also when corrected by residual terms that vanish on real data.
-/

noncomputable section

open scoped BigOperators

namespace Cert.LibOnlineSoftmax

open Idealize.ShloMosaic
open Idealize.ShloMosaic.FiniteSums

variable {W : ℕ}

/-- One tile of the running softmax: the new maximum is the old one joined with the tile's maximum; both
    running sums are rescaled by the exponential of (old maximum - new maximum) and the tile's terms,
    shifted by the new maximum, are added. -/
def step (S V : Fin W → EReal) (st : EReal × EReal × EReal) : EReal × EReal × EReal :=
  let m' := max st.1 ((Finset.univ : Finset (Fin W)).fold max (⊥ : EReal) S)
  (m', Ideal.exp (st.1 - m') * st.2.1 + ∑ r : Fin W, Ideal.exp (S r - m'), Ideal.exp (st.1 - m') * st.2.2 + ∑ r : Fin W, Ideal.exp (S r - m') * V r)

/-- The running state after k tiles, starting from (-∞, 0, 0). -/
def state (S V : ℕ → Fin W → EReal) : ℕ → EReal × EReal × EReal
  | 0 => (⊥, 0, 0)
  | k + 1 => step (S k) (V k) (state S V k)

/-! ## The maximum of a tile of real scores is real -/

/-- The maximum, started from -∞, of a nonempty tile of real scores is one of them, hence real. -/
theorem fold_max_coe [NeZero W] (f : Fin W → ℝ) :
    ∃ T : ℝ, (Finset.univ : Finset (Fin W)).fold max (⊥ : EReal) (fun r => (f r : EReal)) = (T : EReal) := by
  obtain ⟨i, -, hi⟩ := Finset.exists_mem_eq_sup (Finset.univ : Finset (Fin W)) Finset.univ_nonempty
    (fun r => (f r : EReal))
  exact ⟨f i, hi⟩

/-- The maximum of two real numbers, taken in the extended reals, is real. -/
theorem max_coe_coe (a b : ℝ) : ∃ c : ℝ, max (a : EReal) (b : EReal) = (c : EReal) := by
  rcases max_choice (a : EReal) (b : EReal) with h | h
  · exact ⟨a, h⟩
  · exact ⟨b, h⟩

/-- The exponential of a difference of two real numbers, computed in the extended reals. -/
theorem exp_coe_sub_coe (a b : ℝ) : Ideal.exp ((a : EReal) - (b : EReal)) = ((Real.exp (a - b) : ℝ) : EReal) := by
  rw [← EReal.coe_sub]; rfl

/-! ## One tile -/

/-- The first tile: from (-∞, 0, 0) the state becomes (M, ∑ exp (s - M), ∑ exp (s - M) · v) for a real M. -/
theorem step_bot [NeZero W] (s v : Fin W → ℝ) :
    ∃ M' : ℝ, step (fun r => (s r : EReal)) (fun r => (v r : EReal)) ((⊥ : EReal), (0 : EReal), (0 : EReal))
      = ((M' : EReal), ((∑ r : Fin W, Real.exp (s r - M') : ℝ) : EReal),
          ((∑ r : Fin W, Real.exp (s r - M') * v r : ℝ) : EReal)) := by
  obtain ⟨T, hT⟩ := fold_max_coe s
  refine ⟨T, ?_⟩
  simp only [step]
  rw [hT, max_eq_right (bot_le : (⊥ : EReal) ≤ (T : EReal)), EReal.bot_sub, Ideal.exp_bot, zero_mul]
  simp only [zero_add, exp_coe_sub_coe, ← EReal.coe_mul, ← coe_finset_sum]

/-- A later tile: from a real state (M, A, B) the state becomes
    (M', exp (M - M') · A + ∑ exp (s - M'), exp (M - M') · B + ∑ exp (s - M') · v) for a real M'. -/
theorem step_coe [NeZero W] (s v : Fin W → ℝ) (M A B : ℝ) :
    ∃ M' : ℝ, step (fun r => (s r : EReal)) (fun r => (v r : EReal)) ((M : EReal), (A : EReal), (B : EReal))
      = ((M' : EReal), ((Real.exp (M - M') * A + ∑ r : Fin W, Real.exp (s r - M') : ℝ) : EReal),
          ((Real.exp (M - M') * B + ∑ r : Fin W, Real.exp (s r - M') * v r : ℝ) : EReal)) := by
  obtain ⟨T, hT⟩ := fold_max_coe s
  obtain ⟨M', hM'⟩ := max_coe_coe M T
  refine ⟨M', ?_⟩
  simp only [step]
  rw [hT, hM']
  simp only [exp_coe_sub_coe, ← EReal.coe_mul, ← coe_finset_sum, ← EReal.coe_add]

/-! ## The invariant -/

/-- Rescaling: exp (M - M') · exp (x - M) = exp (x - M'). -/
theorem exp_rescale (M M' x : ℝ) : Real.exp (M - M') * Real.exp (x - M) = Real.exp (x - M') := by
  rw [← Real.exp_add]; congr 1; ring

/-- After k + 1 tiles of real scores and values the state is real: for some real M it is
    (M, ∑ exp (s - M), ∑ exp (s - M) · v), the sums running over all rows of the first k + 1 tiles. -/
theorem state_inv [NeZero W] (s v : ℕ → Fin W → ℝ) (k : ℕ) :
    ∃ M : ℝ, state (fun j r => (s j r : EReal)) (fun j r => (v j r : EReal)) (k + 1)
      = ((M : EReal), ((∑ j ∈ Finset.range (k + 1), ∑ r : Fin W, Real.exp (s j r - M) : ℝ) : EReal),
          ((∑ j ∈ Finset.range (k + 1), ∑ r : Fin W, Real.exp (s j r - M) * v j r : ℝ) : EReal)) := by
  induction k with
  | zero =>
    obtain ⟨M, hM⟩ := step_bot (s 0) (v 0)
    refine ⟨M, ?_⟩
    show step (fun r => (s 0 r : EReal)) (fun r => (v 0 r : EReal)) ((⊥ : EReal), (0 : EReal), (0 : EReal)) = _
    rw [hM, Finset.sum_range_one, Finset.sum_range_one]
  | succ k ih =>
    obtain ⟨M, hM⟩ := ih
    obtain ⟨M', hM'⟩ := step_coe (s (k + 1)) (v (k + 1)) M
      (∑ j ∈ Finset.range (k + 1), ∑ r : Fin W, Real.exp (s j r - M))
      (∑ j ∈ Finset.range (k + 1), ∑ r : Fin W, Real.exp (s j r - M) * v j r)
    refine ⟨M', ?_⟩
    show step (fun r => (s (k + 1) r : EReal)) (fun r => (v (k + 1) r : EReal))
      (state (fun j r => (s j r : EReal)) (fun j r => (v j r : EReal)) (k + 1)) = _
    rw [hM, hM']
    have e1 : Real.exp (M - M') * (∑ j ∈ Finset.range (k + 1), ∑ r : Fin W, Real.exp (s j r - M))
        = ∑ j ∈ Finset.range (k + 1), ∑ r : Fin W, Real.exp (s j r - M') := by
      rw [Finset.mul_sum]
      refine Finset.sum_congr rfl fun j _ => ?_
      rw [Finset.mul_sum]
      exact Finset.sum_congr rfl fun r _ => exp_rescale M M' (s j r)
    have e2 : Real.exp (M - M') * (∑ j ∈ Finset.range (k + 1), ∑ r : Fin W, Real.exp (s j r - M) * v j r)
        = ∑ j ∈ Finset.range (k + 1), ∑ r : Fin W, Real.exp (s j r - M') * v j r := by
      rw [Finset.mul_sum]
      refine Finset.sum_congr rfl fun j _ => ?_
      rw [Finset.mul_sum]
      refine Finset.sum_congr rfl fun r _ => ?_
      rw [← mul_assoc, exp_rescale]
    rw [e1, e2, ← Finset.sum_range_succ (fun j => ∑ r : Fin W, Real.exp (s j r - M')) (k + 1),
      ← Finset.sum_range_succ (fun j => ∑ r : Fin W, Real.exp (s j r - M') * v j r) (k + 1)]

/-! ## The final quotient -/

/-- Shifting every score by M multiplies both sums by exp (-M), which cancels in the quotient. -/
theorem ratio_shift (s v : ℕ → Fin W → ℝ) (n : ℕ) (M : ℝ) :
    (∑ j ∈ Finset.range n, ∑ r : Fin W, Real.exp (s j r - M) * v j r)
        / (∑ j ∈ Finset.range n, ∑ r : Fin W, Real.exp (s j r - M))
      = (∑ j ∈ Finset.range n, ∑ r : Fin W, Real.exp (s j r) * v j r)
        / (∑ j ∈ Finset.range n, ∑ r : Fin W, Real.exp (s j r)) := by
  have hN : (∑ j ∈ Finset.range n, ∑ r : Fin W, Real.exp (s j r - M) * v j r)
      = Real.exp (-M) * ∑ j ∈ Finset.range n, ∑ r : Fin W, Real.exp (s j r) * v j r := by
    rw [Finset.mul_sum]
    refine Finset.sum_congr rfl fun j _ => ?_
    rw [Finset.mul_sum]
    refine Finset.sum_congr rfl fun r _ => ?_
    rw [sub_eq_add_neg, Real.exp_add]; ring
  have hD : (∑ j ∈ Finset.range n, ∑ r : Fin W, Real.exp (s j r - M))
      = Real.exp (-M) * ∑ j ∈ Finset.range n, ∑ r : Fin W, Real.exp (s j r) := by
    rw [Finset.mul_sum]
    refine Finset.sum_congr rfl fun j _ => ?_
    rw [Finset.mul_sum]
    refine Finset.sum_congr rfl fun r _ => ?_
    rw [sub_eq_add_neg, Real.exp_add]; ring
  rw [hN, hD, mul_div_mul_left _ _ (Real.exp_pos (-M)).ne']

/-- Over at least one tile the sum of the shifted exponentials is positive. -/
theorem sum_exp_pos [NeZero W] (s : ℕ → Fin W → ℝ) (k : ℕ) (M : ℝ) :
    0 < ∑ j ∈ Finset.range (k + 1), ∑ r : Fin W, Real.exp (s j r - M) :=
  Finset.sum_pos (fun j _ => Finset.sum_pos (fun r _ => Real.exp_pos _) Finset.univ_nonempty)
    ⟨0, Finset.mem_range.2 (Nat.succ_pos k)⟩

/-- After at least one tile of real scores and values, the quotient of the weighted running sum by the plain
    running sum is the softmax-weighted average of the values over all rows of all tiles. -/
theorem state_final [NeZero W] (s v : ℕ → Fin W → ℝ) (n : ℕ) (hn : 0 < n) :
    Ideal.div (state (fun j r => (s j r : EReal)) (fun j r => (v j r : EReal)) n).2.2 (state (fun j r => (s j r : EReal)) (fun j r => (v j r : EReal)) n).2.1
      = (((∑ j ∈ Finset.range n, ∑ r : Fin W, Real.exp (s j r) * v j r) / (∑ j ∈ Finset.range n, ∑ r : Fin W, Real.exp (s j r)) : ℝ) : EReal) := by
  obtain ⟨k, rfl⟩ : ∃ k, n = k + 1 := ⟨n - 1, (Nat.succ_pred_eq_of_pos hn).symm⟩
  obtain ⟨M, hM⟩ := state_inv s v k
  rw [hM]
  show Ideal.div ((_ : ℝ) : EReal) ((_ : ℝ) : EReal) = _
  rw [div_coe_coe _ _ (sum_exp_pos s k M).ne', ratio_shift]

/-! ## Dot products of real vectors -/

/-- A dot product of two real vectors over a finite index type, computed in the extended reals, is the real dot product. -/
theorem dot_coe {ι : Type*} [Fintype ι] (x w : ι → ℝ) :
    (∑ d : ι, (x d : EReal) * (w d : EReal)) = ((∑ d : ι, x d * w d : ℝ) : EReal) := by
  rw [coe_finset_sum]
  exact Finset.sum_congr rfl fun d _ => (EReal.coe_mul (x d) (w d)).symm

/-- A real number minus itself, in the extended reals, is zero. -/
theorem coe_sub_self (a : ℝ) : (a : EReal) - (a : EReal) = 0 := by
  rw [← EReal.coe_sub, sub_self, EReal.coe_zero]

/-- A score computed with split-precision residuals: on real data both residuals (x - x and q - q) vanish,
    so the two correction sums are zero and the score is the real dot product. -/
theorem score_coe {ι : Type*} [Fintype ι] (x q : ι → ℝ) :
    (∑ d : ι, (x d : EReal) * (q d : EReal)) + (∑ d : ι, ((x d : EReal) - (x d : EReal)) * (q d : EReal)) + (∑ d : ι, (x d : EReal) * ((q d : EReal) - (q d : EReal))) = ((∑ d : ι, x d * q d : ℝ) : EReal) := by
  have h1 : (∑ d : ι, ((x d : EReal) - (x d : EReal)) * (q d : EReal)) = 0 :=
    Finset.sum_eq_zero fun d _ => by rw [coe_sub_self, zero_mul]
  have h2 : (∑ d : ι, (x d : EReal) * ((q d : EReal) - (q d : EReal))) = 0 :=
    Finset.sum_eq_zero fun d _ => by rw [coe_sub_self, mul_zero]
  rw [h1, h2, add_zero, add_zero, dot_coe]

/-! ## The state depends only on the tiles consumed -/

/-- Two families of tiles that agree on the first n tiles give the same state after n tiles. -/
theorem state_congr (S S' V V' : ℕ → Fin W → EReal) (n : ℕ) (h : ∀ j, j < n → S j = S' j ∧ V j = V' j) :
    state S V n = state S' V' n := by
  induction n with
  | zero => rfl
  | succ k ih =>
    show step (S k) (V k) (state S V k) = step (S' k) (V' k) (state S' V' k)
    rw [ih fun j hj => h j (Nat.lt_succ_of_lt hj), (h k (Nat.lt_succ_self k)).1, (h k (Nat.lt_succ_self k)).2]

end Cert.LibOnlineSoftmax
-- ==== Proof.Spec.lean ====
/-
  Label-wise attention pooling followed by a linear head, as one function of real arrays.

  For a batch row `b`, a sequence position `t` and a label `l`, the score is the inner product of
  `x[b, t, :]` with `q[l, :]`.  The weights of label `l` over the sequence are the softmax of its
  scores along `t`; the pooled feature vector is the weighted sum of the rows `x[b, t, :]`, and the head
  maps it to the scalar `∑ d, pooled[d] * w[0, d]`.  Because the head is linear, the result is the
  weighted mean of the per-position scalars `∑ d, x[b, t, d] * w[0, d]`; since a softmax does not change
  when a constant is subtracted from every score, it is written here without the subtracted maximum.
-/
import Mathlib
import Idealize.ShloMosaic.Lib.ValueIdx

noncomputable section

namespace Cert.AttnPool

open Idealize.ShloMosaic Idealize.ShloMosaic.ValueIdx

/-- The score of label `l` at position `t` of batch row `b`: `∑ d, x[b, t, d] * q[l, d]`. -/
def score (x : (⟨3, ![16, 4096, 512]⟩ : Shape).Idx → ℝ) (q : (⟨2, ![1024, 512]⟩ : Shape).Idx → ℝ)
    (b : Fin 16) (t : Fin 4096) (l : Fin 1024) : ℝ :=
  ∑ d : Fin 512, x (ix3 b t d) * q (ix2 l d)

/-- The head applied to one row: `∑ d, x[b, t, d] * w[0, d]`. -/
def headRow (x : (⟨3, ![16, 4096, 512]⟩ : Shape).Idx → ℝ) (w : (⟨2, ![1, 512]⟩ : Shape).Idx → ℝ)
    (b : Fin 16) (t : Fin 4096) : ℝ :=
  ∑ d : Fin 512, x (ix3 b t d) * w (ix2 0 d)

/-- The softmax-weighted mean over the sequence of the head's values, for batch row `b` and label `l`. -/
def pooled (x : (⟨3, ![16, 4096, 512]⟩ : Shape).Idx → ℝ) (q : (⟨2, ![1024, 512]⟩ : Shape).Idx → ℝ)
    (w : (⟨2, ![1, 512]⟩ : Shape).Idx → ℝ) (b : Fin 16) (l : Fin 1024) : ℝ :=
  (∑ t : Fin 4096, Real.exp (score x q b t l) * headRow x w b t) / (∑ t : Fin 4096, Real.exp (score x q b t l))

/-- The whole result, entry `(b, l)`: the pooled value plus the bias (the one entry of `fcb`). -/
def result (x : (⟨3, ![16, 4096, 512]⟩ : Shape).Idx → ℝ) (q : (⟨2, ![1024, 512]⟩ : Shape).Idx → ℝ)
    (w : (⟨2, ![1, 512]⟩ : Shape).Idx → ℝ) (fcb : (⟨1, ![1]⟩ : Shape).Idx → EReal) :
    (⟨2, ![16, 1024]⟩ : Shape).Idx → EReal :=
  fun i => ((pooled x q w (i 0) (i 1) : ℝ) : EReal) + fcb (ix1 0)

end Cert.AttnPool

end
-- ==== Proof.Bias.lean ====
/-
  The bias term: a one-element array, reshaped to a scalar and broadcast to a 16 × 1024 matrix. Every entry of
  the result is the one element of the array.
-/
import Idealize.ShloMosaic.Lib.ValueIdx
import Idealize.ShloMosaic.Lib.Pipeline.Value
import Idealize.ShloMosaic.Lib.ValueLayout
import Idealize.ShloMosaic.PureOps.Ideal

namespace Cert.AttnPool.Bias

open Idealize.ShloMosaic

/-- A one-element array reshaped to a scalar: the scalar's only entry is the array's only entry. Both have
    row-major position 0. -/
theorem scalar_apply {α : Type} (x3 : (⟨1, ![1]⟩ : Shape).Idx → α)
    (hc : (⟨1, ![1]⟩ : Shape).ShapeCasts (⟨0, ![]⟩ : Shape)) (j : (⟨0, ![]⟩ : Shape).Idx) :
    shapeCast (⟨0, ![]⟩ : Shape) x3 hc j = x3 (ValueIdx.ix1 (0 : Fin 1)) := by
  refine shapeCast_apply x3 hc j (ValueIdx.ix1 (0 : Fin 1)) ?_
  rw [Shape.rowMajor_val_one]
  have h1 : (⟨0, ![]⟩ : Shape).numel = 1 := by decide
  have h : ((⟨0, ![]⟩ : Shape).rowMajor j).val < 1 := Nat.lt_of_lt_of_eq ((⟨0, ![]⟩ : Shape).rowMajor j).isLt h1
  show (0 : Nat) = _
  omega

/-- The scalar broadcast to 16 × 1024 (no operand axis is mapped), read at any entry, is the array's only
    entry; for values of any type. -/
theorem bias_apply_gen {α : Type} (x3 : (⟨1, ![1]⟩ : Shape).Idx → α)
    (hb : (⟨0, ![]⟩ : Shape).BroadcastsInDim (⟨2, ![16, 1024]⟩ : Shape) (![] : Fin 0 → Fin 2))
    (hc : (⟨1, ![1]⟩ : Shape).ShapeCasts (⟨0, ![]⟩ : Shape)) (i : (⟨2, ![16, 1024]⟩ : Shape).Idx) :
    broadcastInDim (⟨2, ![16, 1024]⟩ : Shape) ![] hb (shapeCast (⟨0, ![]⟩ : Shape) x3 hc) i
      = x3 (ValueIdx.ix1 (0 : Fin 1)) := by
  rw [broadcastInDim_apply _ hb _ i (fun a => a.elim0) (fun a => a.elim0)]
  exact scalar_apply x3 hc _

/-- The same at 32-bit float values of any float model. -/
theorem bias_apply {F : FTy → Type} [FloatOps F] (x3 : (⟨1, ![1]⟩ : Shape).Idx → F .f32)
    (hb : (⟨0, ![]⟩ : Shape).BroadcastsInDim (⟨2, ![16, 1024]⟩ : Shape) (![] : Fin 0 → Fin 2))
    (hc : (⟨1, ![1]⟩ : Shape).ShapeCasts (⟨0, ![]⟩ : Shape)) (i : (⟨2, ![16, 1024]⟩ : Shape).Idx) :
    broadcastInDim (⟨2, ![16, 1024]⟩ : Shape) ![] hb (shapeCast (⟨0, ![]⟩ : Shape) x3 hc) i
      = x3 (ValueIdx.ix1 (0 : Fin 1)) :=
  bias_apply_gen x3 hb hc i

end Cert.AttnPool.Bias
-- ==== Proof.RealValue.lean ====
/-
  The kernel's result at real inputs.

  Fix a row group `g`, a row `b` of it and a label `l`.  Read at the entry `(b, 0, l)`, the three carried
  arrays after tile `k` of the group are the running maximum, sum and weighted sum of an online softmax over
  the tiles `0 … k`, whose scores are the three-pass products of the tile's rows with `q[l, :]` and whose
  values are the rows' inner products with `w`.  When the inputs are real numbers the residual passes vanish,
  the scores are the plain inner products, and after the last tile the quotient weighted sum / sum is the
  softmax-weighted mean of the specification.
-/
import proofs.«110159_j22342419874354_2_alg».proof.Proof.RegionValue
import proofs.«110159_j22342419874354_2_alg».proof.Proof.Payloads
import proofs.«110159_j22342419874354_2_alg».proof.Proof.Blocks
import proofs.«110159_j22342419874354_2_alg».proof.Proof.TileIndex
import proofs.«110159_j22342419874354_2_alg».proof.Proof.LibOnlineSoftmax
import proofs.«110159_j22342419874354_2_alg».proof.Proof.Spec
import proofs.«110159_j22342419874354_2_alg».proof.Proof.Bias

set_option maxRecDepth 16384

noncomputable section

open Idealize.ShloMosaic Idealize.ShloMosaic.TcCoe Idealize.SL.Sem Idealize.ShloMosaic.ValueIdx

namespace Cert.KernelIdeal.RealValue

open Cert.KernelIdeal Cert.KernelIdeal.Gen Cert.KernelIdeal.Fold Cert.KernelIdeal.RegionValue
open Cert.AttnPool Cert.AttnPool.Pay Cert.AttnPool.TileIndex Cert.LibOnlineSoftmax

variable (m : (ℓ : Loc nD τ sig) → Buf (Elt Ideal) ℓ)

/-- The three carried arrays read at row `b`, label `l`. -/
def at3 (st : Tri Ideal) (b : Fin 8) (l : Fin 1024) : EReal × EReal × EReal :=
  (st.1 (ix3 b (0 : Fin 1) l), st.2.1 (ix3 b (0 : Fin 1) l), st.2.2 (ix3 b (0 : Fin 1) l))

/-- One pass of the body, read at `(b, l)`, is one step of the online softmax over the tile's 128 rows. -/
theorem step_at (x0 : Vec Ideal S8x128x512 .f32) (x1 : Vec Ideal S1024x512 .f32) (x2 : Vec Ideal S1x512 .f32)
    (st : Tri Ideal) (b : Fin 8) (l : Fin 1024) :
    at3 (Fold.step x0 x1 x2 st) b l
      = Cert.LibOnlineSoftmax.step (fun r => k0_pay8 (F := Ideal) x0 x1 (ix3 b r l))
          (fun r => k0_pay9 (F := Ideal) x0 x2 (ix3 b r (0 : Fin 1))) (at3 st b l) := by
  unfold at3 Fold.step Cert.LibOnlineSoftmax.step
  simp only [pay3_eq, pay1_apply, pay2_apply, pay11_apply, pay12_apply, pay10_apply]

/-- The reset contents read at `(b, l)`. -/
theorem reset_at (b : Fin 8) (l : Fin 1024) : at3 (Fold.reset (F := Ideal)) b l = (⊥, 0, 0) := by
  unfold at3 Fold.reset
  simp only [pay5_apply, pay6_apply, pay7_apply]

/-- At the first tile of a row group the carried arrays are one pass from the reset contents. -/
theorem carried_first (c : Dev nD) (n : ℕ) (h : n < cfg0.N) (h0 : n % 32 = 0) :
    carried m c n h = Fold.step (iblk m c 0 ⟨n, h⟩) (iblk m c 1 ⟨n, h⟩) (iblk m c 2 ⟨n, h⟩) Fold.reset := by
  cases n with
  | zero => rfl
  | succ k =>
    show Fold.step _ _ _ (if (k + 1) % 32 = 0 then Fold.reset else _) = _
    rw [if_pos h0]

/-- At a later tile they are one pass from the previous point's. -/
theorem carried_next (c : Dev nD) (k : ℕ) (h : k + 1 < cfg0.N) (h0 : ¬(k + 1) % 32 = 0) :
    carried m c (k + 1) h
      = Fold.step (iblk m c 0 ⟨k + 1, h⟩) (iblk m c 1 ⟨k + 1, h⟩) (iblk m c 2 ⟨k + 1, h⟩) (carried m c k (Nat.lt_of_succ_lt h)) := by
  show Fold.step _ _ _ (if (k + 1) % 32 = 0 then Fold.reset else _) = _
  rw [if_neg h0]

/-- The scores of tile `j` of row group `g` at row `b` against label `l`. -/
def tileS (c : Dev nD) (g : Fin 2) (b : Fin 8) (l : Fin 1024) (j : ℕ) (r : Fin 128) : EReal :=
  if h : 32 * g.val + j < cfg0.N then
    k0_pay8 (F := Ideal) (iblk m c 0 ⟨32 * g.val + j, h⟩) (iblk m c 1 ⟨32 * g.val + j, h⟩) (ix3 b r l)
  else 0

/-- The head's values of the rows of tile `j` of row group `g`, row `b`. -/
def tileV (c : Dev nD) (g : Fin 2) (b : Fin 8) (j : ℕ) (r : Fin 128) : EReal :=
  if h : 32 * g.val + j < cfg0.N then
    k0_pay9 (F := Ideal) (iblk m c 0 ⟨32 * g.val + j, h⟩) (iblk m c 2 ⟨32 * g.val + j, h⟩) (ix3 b r (0 : Fin 1))
  else 0

/-- After tile `k` of row group `g` the carried arrays at `(b, l)` are the online softmax state over tiles `0 … k`. -/
theorem carried_state (c : Dev nD) (g : Fin 2) (b : Fin 8) (l : Fin 1024) :
    ∀ (k : ℕ) (n : ℕ) (h : n < cfg0.N), n = 32 * g.val + k → k < 32 →
      at3 (carried m c n h) b l = Cert.LibOnlineSoftmax.state (tileS m c g b l) (tileV m c g b) (k + 1)
  | 0, n, h, hn, _ => by
    subst hn
    rw [carried_first m c _ h (by omega), step_at, reset_at]
    show _ = Cert.LibOnlineSoftmax.step (tileS m c g b l 0) (tileV m c g b 0) (⊥, 0, 0)
    have eS : (fun r => k0_pay8 (F := Ideal) (iblk m c 0 ⟨32 * g.val + 0, h⟩) (iblk m c 1 ⟨32 * g.val + 0, h⟩) (ix3 b r l)) = tileS m c g b l 0 := by
      funext r; unfold tileS; rw [dif_pos h]
    have eV : (fun r => k0_pay9 (F := Ideal) (iblk m c 0 ⟨32 * g.val + 0, h⟩) (iblk m c 2 ⟨32 * g.val + 0, h⟩) (ix3 b r (0 : Fin 1))) = tileV m c g b 0 := by
      funext r; unfold tileV; rw [dif_pos h]
    rw [eS, eV]
  | k + 1, n, h, hn, hk => by
    subst hn
    have h' : 32 * g.val + k + 1 < cfg0.N := h
    show at3 (carried m c (32 * g.val + k + 1) h') b l = _
    rw [carried_next m c (32 * g.val + k) h' (by omega), step_at,
      carried_state c g b l k (32 * g.val + k) (Nat.lt_of_succ_lt h') rfl (by omega)]
    show _ = Cert.LibOnlineSoftmax.step (tileS m c g b l (k + 1)) (tileV m c g b (k + 1)) (Cert.LibOnlineSoftmax.state (tileS m c g b l) (tileV m c g b) (k + 1))
    have eS : (fun r => k0_pay8 (F := Ideal) (iblk m c 0 ⟨32 * g.val + k + 1, h'⟩) (iblk m c 1 ⟨32 * g.val + k + 1, h'⟩) (ix3 b r l)) = tileS m c g b l (k + 1) := by
      funext r; unfold tileS; rw [dif_pos h]; rfl
    have eV : (fun r => k0_pay9 (F := Ideal) (iblk m c 0 ⟨32 * g.val + k + 1, h'⟩) (iblk m c 2 ⟨32 * g.val + k + 1, h'⟩) (ix3 b r (0 : Fin 1))) = tileV m c g b (k + 1) := by
      funext r; unfold tileV; rw [dif_pos h]; rfl
    rw [eS, eV]

/-! ## Real inputs -/

variable (xr : (⟨3, ![16, 4096, 512]⟩ : Shape).Idx → ℝ) (qr : (⟨2, ![1024, 512]⟩ : Shape).Idx → ℝ)
  (wr : (⟨2, ![1, 512]⟩ : Shape).Idx → ℝ)

/-- An entry of the tile's block of `x` is the corresponding entry of the whole array. -/
theorem x_entry (c : Dev nD) (hx : (m ((c.tc : Thread nD τ).loc main_arg0) : FVec Ideal S16x4096x512 .f32) = fun i => (xr i : EReal))
    (g : Fin 2) (b : Fin 8) (B : Fin 16) (hB : B.val = 8 * g.val + b.val) (j : ℕ) (hj : j < 32) (h : 32 * g.val + j < cfg0.N)
    (r : Fin 128) (d : Fin 512) :
    (iblk m c 0 ⟨32 * g.val + j, h⟩ : Vec Ideal S8x128x512 .f32) (ix3 b r d) = ((xr (ix3 B (tileIdx j r) d) : ℝ) : EReal) := by
  rw [Blocks.iblk0_apply, hx]
  refine congrArg₂ (fun (B' : Fin 16) (T' : Fin 4096) => ((xr (ix3 B' T' d) : ℝ) : EReal)) (Fin.ext ?_) (Fin.ext ?_)
  · show 8 * ((32 * g.val + j) / 32) + b.val = B.val
    omega
  · show 128 * ((32 * g.val + j) % 32) + r.val = (tileIdx j r).val
    rw [tileIdx_val j hj]; omega

/-- With real inputs the scores are the plain inner products. -/
theorem tileS_real (c : Dev nD) (hx : (m ((c.tc : Thread nD τ).loc main_arg0) : FVec Ideal S16x4096x512 .f32) = fun i => (xr i : EReal))
    (hq : (m ((c.tc : Thread nD τ).loc main_arg1) : FVec Ideal S1024x512 .f32) = fun i => (qr i : EReal))
    (g : Fin 2) (b : Fin 8) (B : Fin 16) (hB : B.val = 8 * g.val + b.val) (l : Fin 1024) (j : ℕ) (hj : j < 32) (r : Fin 128) :
    tileS m c g b l j r = ((score xr qr B (tileIdx j r) l : ℝ) : EReal) := by
  have hN : cfg0.N = 64 := N_0
  have h : 32 * g.val + j < cfg0.N := by have := g.isLt; omega
  unfold tileS
  rw [dif_pos h, pay8_apply]
  simp only [x_entry m xr c hx g b B hB j hj h, Blocks.iblk1_eq, hq]
  exact Cert.LibOnlineSoftmax.score_coe (fun d => xr (ix3 B (tileIdx j r) d)) (fun d => qr (ix2 l d))

/-- With real inputs the head's values are the plain inner products. -/
theorem tileV_real (c : Dev nD) (hx : (m ((c.tc : Thread nD τ).loc main_arg0) : FVec Ideal S16x4096x512 .f32) = fun i => (xr i : EReal))
    (hw : (m ((c.tc : Thread nD τ).loc main_arg2) : FVec Ideal S1x512 .f32) = fun i => (wr i : EReal))
    (g : Fin 2) (b : Fin 8) (B : Fin 16) (hB : B.val = 8 * g.val + b.val) (j : ℕ) (hj : j < 32) (r : Fin 128) :
    tileV m c g b j r = ((headRow xr wr B (tileIdx j r) : ℝ) : EReal) := by
  have hN : cfg0.N = 64 := N_0
  have h : 32 * g.val + j < cfg0.N := by have := g.isLt; omega
  unfold tileV
  rw [dif_pos h, pay9_apply]
  simp only [x_entry m xr c hx g b B hB j hj h, Blocks.iblk2_eq, hw]
  exact Cert.LibOnlineSoftmax.dot_coe (fun d => xr (ix3 B (tileIdx j r) d)) (fun d => wr (ix2 (0 : Fin 1) d))

/-- The region's array at real inputs: the softmax-weighted mean. -/
theorem regionOut_real (c : Dev nD) (hx : (m ((c.tc : Thread nD τ).loc main_arg0) : FVec Ideal S16x4096x512 .f32) = fun i => (xr i : EReal))
    (hq : (m ((c.tc : Thread nD τ).loc main_arg1) : FVec Ideal S1024x512 .f32) = fun i => (qr i : EReal))
    (hw : (m ((c.tc : Thread nD τ).loc main_arg2) : FVec Ideal S1x512 .f32) = fun i => (wr i : EReal))
    (B : Fin 16) (l : Fin 1024) :
    regionOut m c (ix2 B l) = ((pooled xr qr wr B l : ℝ) : EReal) := by
  have hB16 : B.val < 16 := B.isLt
  let g : Fin 2 := ⟨B.val / 8, by omega⟩
  let b : Fin 8 := ⟨B.val % 8, Nat.mod_lt _ (by norm_num)⟩
  have hB : B.val = 8 * g.val + b.val := by show B.val = 8 * (B.val / 8) + B.val % 8; omega
  show k0_pay4 (F := Ideal) (carried m c (32 * g.val + 31) (lastPoint_lt g)).2.2 (carried m c (32 * g.val + 31) (lastPoint_lt g)).2.1 (ix2 b l) = _
  rw [pay4_apply]
  have hst := carried_state m c g b l 31 (32 * g.val + 31) (lastPoint_lt g) rfl (by norm_num)
  have h1 : (carried m c (32 * g.val + 31) (lastPoint_lt g)).2.1 (ix3 b (0 : Fin 1) l)
      = (Cert.LibOnlineSoftmax.state (tileS m c g b l) (tileV m c g b) 32).2.1 := congrArg (fun p => p.2.1) hst
  have h2 : (carried m c (32 * g.val + 31) (lastPoint_lt g)).2.2 (ix3 b (0 : Fin 1) l)
      = (Cert.LibOnlineSoftmax.state (tileS m c g b l) (tileV m c g b) 32).2.2 := congrArg (fun p => p.2.2) hst
  rw [h1, h2, Cert.LibOnlineSoftmax.state_congr (tileS m c g b l) (fun j r => ((score xr qr B (tileIdx j r) l : ℝ) : EReal))
      (tileV m c g b) (fun j r => ((headRow xr wr B (tileIdx j r) : ℝ) : EReal)) 32
      (fun j hj => ⟨funext fun r => tileS_real m xr qr c hx hq g b B hB l j hj r,
        funext fun r => tileV_real m xr wr c hx hw g b B hB j hj r⟩),
    Cert.LibOnlineSoftmax.state_final (fun j r => score xr qr B (tileIdx j r) l) (fun j r => headRow xr wr B (tileIdx j r)) 32 (by norm_num)]
  unfold pooled
  rw [sum_tileIdx (fun t => Real.exp (score xr qr B t l) * headRow xr wr B t), sum_tileIdx (fun t => Real.exp (score xr qr B t l))]

/-- The kernel program's result at real inputs is the specification's. -/
theorem result_real (c : Dev nD) (hx : (m ((c.tc : Thread nD τ).loc main_arg0) : FVec Ideal S16x4096x512 .f32) = fun i => (xr i : EReal))
    (hq : (m ((c.tc : Thread nD τ).loc main_arg1) : FVec Ideal S1024x512 .f32) = fun i => (qr i : EReal))
    (hw : (m ((c.tc : Thread nD τ).loc main_arg2) : FVec Ideal S1x512 .f32) = fun i => (wr i : EReal)) :
    RegionValue.result m c = Cert.AttnPool.result xr qr wr (m ((c.tc : Thread nD τ).loc main_arg3)) := by
  funext i
  obtain ⟨B, l, rfl⟩ : ∃ (B : Fin 16) (l : Fin 1024), i = ix2 B l := ⟨i 0, i 1, eq_ix2 i⟩
  show regionOut m c (ix2 B l) + broadcastInDim S16x1024 ![] bcast_S_S16x1024 (shapeCast S_ (m ((c.tc : Thread nD τ).loc main_arg3)) shapeCasts_S1_S_) (ix2 B l) = _
  rw [regionOut_real m xr qr wr c hx hq hw B l]
  exact congrArg (fun z => ((pooled xr qr wr B l : ℝ) : EReal) + z)
    (Cert.AttnPool.Bias.bias_apply (F := Ideal) (m ((c.tc : Thread nD τ).loc main_arg3)) bcast_S_S16x1024 shapeCasts_S1_S_ (ix2 B l))

end Cert.KernelIdeal.RealValue

end
-- ==== Proof.RefValue.lean ====
/-
  The reference program's result, entry by entry, as the specification's function of real arrays.

  On real inputs every stage of the reference is real: the scores are finite sums of products; the
  running maximum over the sequence is a maximum of finitely many reals (at least one), hence a real
  number `M`; the exponentials `exp (s - M)` are positive reals, their sum `Z` over the sequence is a
  positive real, so the quotients `exp (s - M) / Z` are real.  The pooled features and the head are
  finite sums of products of reals.  Finally, since `exp (s - M) = exp s / exp M`, the factor
  `1 / exp M` cancels between numerator and denominator, and exchanging the two finite sums (over the
  sequence and over the feature axis) gives the weighted mean of the head's per-position values.
-/
import proofs.«110159_j22342419874354_2_alg».proof.Proof.Gen.ReferenceIdeal.Read
import proofs.«110159_j22342419874354_2_alg».proof.Proof.Spec
import proofs.«110159_j22342419874354_2_alg».proof.Proof.LibFiniteSums
import Idealize.ShloMosaic.PureOps.Ideal.Laws
import Idealize.ShloMosaic.Lib.ValueIdx
import Idealize.ShloMosaic.Lib.Pipeline.Value
import Idealize.ShloMosaic.Lib.ValueLayout
import Mathlib

noncomputable section

namespace Cert.AttnPool.Ref

open Cert.ReferenceIdeal Cert.ReferenceIdeal.Gen Cert.ReferenceIdeal.Read Idealize.ShloMosaic Idealize.ShloMosaic.ValueIdx
open Idealize.ShloMosaic.FiniteSums

/-! ## Two facts about real numbers and extended reals -/

/-- Softmax weights computed with a subtracted constant `M`, applied to the rows `x t` and followed by a
    linear functional `w`, give the softmax-weighted mean (without the constant) of the functional's
    values on the rows. -/
theorem softmax_head_real {ι κ : Type*} [Fintype ι] [Fintype κ] [Nonempty ι]
    (S : ι → ℝ) (M : ℝ) (x : ι → κ → ℝ) (w : κ → ℝ) :
    ∑ d, (∑ t, Real.exp (S t - M) / (∑ t', Real.exp (S t' - M)) * x t d) * w d
      = (∑ t, Real.exp (S t) * ∑ d, x t d * w d) / ∑ t, Real.exp (S t) := by
  have hZ : 0 < ∑ t, Real.exp (S t) := Finset.sum_pos (fun t _ => Real.exp_pos _) Finset.univ_nonempty
  have hc : 0 < Real.exp M := Real.exp_pos M
  have h1 : ∀ t, Real.exp (S t - M) / (∑ t', Real.exp (S t' - M)) = Real.exp (S t) / ∑ t', Real.exp (S t') := by
    intro t
    have e : (∑ t', Real.exp (S t' - M)) = (∑ t', Real.exp (S t')) / Real.exp M := by
      rw [Finset.sum_div]; exact Finset.sum_congr rfl fun t' _ => Real.exp_sub _ _
    rw [e, Real.exp_sub]
    field_simp
  simp only [h1, Finset.sum_mul]
  rw [Finset.sum_comm, Finset.sum_div]
  refine Finset.sum_congr rfl fun t _ => ?_
  rw [Finset.mul_sum, Finset.sum_div]
  refine Finset.sum_congr rfl fun d _ => ?_
  ring

/-- The maximum, starting from -∞, of a nonempty finite family of real numbers is a real number. -/
theorem fold_max_isReal {ι : Type*} [Fintype ι] [Nonempty ι] (f : ι → EReal) (hf : ∀ k, IsReal (f k)) :
    IsReal ((Finset.univ : Finset ι).fold (FloatOps.maximumf (F := Ideal) (φ := .f32)) (⊥ : EReal) f) := by
  classical
  have key : ∀ s : Finset ι,
      (s = ∅ ∧ s.fold (FloatOps.maximumf (F := Ideal) (φ := .f32)) (⊥ : EReal) f = ⊥)
        ∨ IsReal (s.fold (FloatOps.maximumf (F := Ideal) (φ := .f32)) (⊥ : EReal) f) := by
    intro s
    induction s using Finset.induction_on with
    | empty => exact Or.inl ⟨rfl, Finset.fold_empty⟩
    | insert a s ha ih =>
      right
      rw [Finset.fold_insert ha, Ideal.maximumf_def]
      rcases ih with ⟨_, h⟩ | h
      · rw [h, max_bot_right]; exact hf a
      · exact isReal_max (hf a) h
  rcases key Finset.univ with ⟨h, _⟩ | h
  · exact absurd h Finset.univ_nonempty.ne_empty
  · exact h

/-! ## The reference, stage by stage, on real inputs -/

section Stages

variable (xr : (⟨3, ![16, 4096, 512]⟩ : Shape).Idx → ℝ) (qr : (⟨2, ![1024, 512]⟩ : Shape).Idx → ℝ)
  (wr : (⟨2, ![1, 512]⟩ : Shape).Idx → ℝ)

/-- The pattern `0xFF800000` denotes -∞. -/
theorem ofBits_negInf : Ideal.ofBits .f32 0xFF800000#32 = (⊥ : EReal) := by simp [Ideal.ofBits, Ideal.ieee]

/-- The first contraction at any index is the score there. -/
theorem v0_gen (i : (⟨3, ![16, 4096, 1024]⟩ : Shape).Idx) :
    val_main_v0 (F := Ideal) (fun i => (xr i : EReal)) (fun i => (qr i : EReal)) i
      = ((score xr qr (i 0) (i 1) (i 2) : ℝ) : EReal) := by
  rw [val_main_v0_apply]
  unfold score
  rw [coe_finset_sum]
  refine Finset.sum_congr rfl fun k _ => ?_
  have el : lidx_main_v0 i k = ix3 (i 0) (i 1) k := funext fun a => by
    match a with
    | ⟨0, _⟩ => rfl
    | ⟨1, _⟩ => rfl
    | ⟨2, _⟩ => rfl
  have er : ridx_main_v0 i k = ix2 (i 2) k := funext fun a => by
    match a with
    | ⟨0, _⟩ => rfl
    | ⟨1, _⟩ => rfl
  rw [el, er, EReal.coe_mul]
  rfl

/-- The first contraction at `(b, t, l)` is the score of label `l` at position `t` of row `b`. -/
theorem v0_at (b : Fin 16) (t : Fin 4096) (l : Fin 1024) :
    val_main_v0 (F := Ideal) (fun i => (xr i : EReal)) (fun i => (qr i : EReal)) (ix3 b t l)
      = ((score xr qr b t l : ℝ) : EReal) := v0_gen xr qr (ix3 b t l)

/-- The maximum of the scores over the sequence (clamped below by -∞, which changes nothing) is a real number. -/
theorem v3_isReal (b : Fin 16) (l : Fin 1024) :
    IsReal (val_main_v3 (F := Ideal) (fun i => (xr i : EReal)) (fun i => (qr i : EReal)) (ix2 b l)) := by
  rw [val_main_v3_apply, val_main_v2_apply, val_main_cst_0_apply, Ideal.maximumf_def, Ideal.ofBits_def,
    ofBits_negInf, max_bot_left]
  unfold val_main_v1
  rw [Host.reduce_eq_fold_single FloatOps.maximumf _ _ reducesTo_S16x4096x1024_S16x1024_d1 (by decide) h_S_,
    val_main_cst_apply, Ideal.ofBits_def, ofBits_negInf]
  haveI : Nonempty (Fin (S16x4096x1024.size 1)) := ⟨⟨0, by decide⟩⟩
  refine fold_max_isReal _ fun k => ?_
  exact ⟨_, v0_gen xr qr _⟩

/-- With `Mf b l` the (real) maximum, the exponential stage at `(b, t, l)` is `exp (score - Mf b l)`. -/
theorem v7_at (Mf : Fin 16 → Fin 1024 → ℝ)
    (hM : ∀ b l, val_main_v3 (F := Ideal) (fun i => (xr i : EReal)) (fun i => (qr i : EReal)) (ix2 b l) = ((Mf b l : ℝ) : EReal))
    (b : Fin 16) (t : Fin 4096) (l : Fin 1024) :
    val_main_v7 (F := Ideal) (fun i => (xr i : EReal)) (fun i => (qr i : EReal)) (ix3 b t l)
      = ((Real.exp (score xr qr b t l - Mf b l) : ℝ) : EReal) := by
  have e : idx_main_v4 (idx_main_v5 (ix3 b t l)) = ix2 b l := funext fun a => by
    match a with
    | ⟨0, _⟩ => rfl
    | ⟨1, _⟩ => rfl
  rw [val_main_v7_apply, val_main_v6_apply, val_main_v5_apply, val_main_v4_apply, v0_at, e, hM,
    Ideal.hostUnary_exp_def, Ideal.subf_def, ← EReal.coe_sub, Ideal.exp_coe]

/-- The sum of the exponentials over the sequence. -/
theorem v8_at (Mf : Fin 16 → Fin 1024 → ℝ)
    (hM : ∀ b l, val_main_v3 (F := Ideal) (fun i => (xr i : EReal)) (fun i => (qr i : EReal)) (ix2 b l) = ((Mf b l : ℝ) : EReal))
    (b : Fin 16) (l : Fin 1024) :
    val_main_v8 (F := Ideal) (fun i => (xr i : EReal)) (fun i => (qr i : EReal)) (ix2 b l)
      = ((∑ t : Fin 4096, Real.exp (score xr qr b t l - Mf b l) : ℝ) : EReal) := by
  rw [val_main_v8_apply, val_main_cst_1_apply, Ideal.ofBits_def, Ideal.ofBits_zero_f32, zero_add, coe_finset_sum]
  refine Finset.sum_congr rfl fun k _ => ?_
  have e : idx_main_v8 (ix2 b l) k = ix3 b k l := funext fun a => by
    match a with
    | ⟨0, _⟩ => rfl
    | ⟨1, _⟩ => rfl
    | ⟨2, _⟩ => rfl
  rw [e, v7_at xr qr Mf hM]

/-- The sum of the exponentials is positive. -/
theorem Z_pos (Mf : Fin 16 → Fin 1024 → ℝ) (b : Fin 16) (l : Fin 1024) :
    0 < ∑ t : Fin 4096, Real.exp (score xr qr b t l - Mf b l) :=
  Finset.sum_pos (fun t _ => Real.exp_pos _) Finset.univ_nonempty

/-- The softmax weight at `(b, t, l)`. -/
theorem v11_at (Mf : Fin 16 → Fin 1024 → ℝ)
    (hM : ∀ b l, val_main_v3 (F := Ideal) (fun i => (xr i : EReal)) (fun i => (qr i : EReal)) (ix2 b l) = ((Mf b l : ℝ) : EReal))
    (b : Fin 16) (t : Fin 4096) (l : Fin 1024) :
    val_main_v11 (F := Ideal) (fun i => (xr i : EReal)) (fun i => (qr i : EReal)) (ix3 b t l)
      = ((Real.exp (score xr qr b t l - Mf b l) / (∑ t' : Fin 4096, Real.exp (score xr qr b t' l - Mf b l)) : ℝ) : EReal) := by
  have e : idx_main_v9 (idx_main_v10 (ix3 b t l)) = ix2 b l := funext fun a => by
    match a with
    | ⟨0, _⟩ => rfl
    | ⟨1, _⟩ => rfl
  rw [val_main_v11_apply, val_main_v10_apply, val_main_v9_apply, v7_at xr qr Mf hM, e, v8_at xr qr Mf hM,
    Ideal.hostDivf_def, div_coe_coe _ _ (Z_pos xr qr Mf b l).ne']

/-- The pooled feature `d` of label `l` in row `b`. -/
theorem v12_at (Mf : Fin 16 → Fin 1024 → ℝ)
    (hM : ∀ b l, val_main_v3 (F := Ideal) (fun i => (xr i : EReal)) (fun i => (qr i : EReal)) (ix2 b l) = ((Mf b l : ℝ) : EReal))
    (b : Fin 16) (l : Fin 1024) (d : Fin 512) :
    val_main_v12 (F := Ideal) (fun i => (xr i : EReal)) (fun i => (qr i : EReal)) (ix3 b l d)
      = ((∑ t : Fin 4096, Real.exp (score xr qr b t l - Mf b l) / (∑ t' : Fin 4096, Real.exp (score xr qr b t' l - Mf b l))
            * xr (ix3 b t d) : ℝ) : EReal) := by
  rw [val_main_v12_apply, coe_finset_sum]
  refine Finset.sum_congr rfl fun k _ => ?_
  have el : lidx_main_v12 (ix3 b l d) k = ix3 b k l := funext fun a => by
    match a with
    | ⟨0, _⟩ => rfl
    | ⟨1, _⟩ => rfl
    | ⟨2, _⟩ => rfl
  have er : ridx_main_v12 (ix3 b l d) k = ix3 b k d := funext fun a => by
    match a with
    | ⟨0, _⟩ => rfl
    | ⟨1, _⟩ => rfl
    | ⟨2, _⟩ => rfl
  rw [el, er, v11_at xr qr Mf hM, EReal.coe_mul]

/-- The head applied to the pooled features of label `l` in row `b`. -/
theorem v13_at (Mf : Fin 16 → Fin 1024 → ℝ)
    (hM : ∀ b l, val_main_v3 (F := Ideal) (fun i => (xr i : EReal)) (fun i => (qr i : EReal)) (ix2 b l) = ((Mf b l : ℝ) : EReal))
    (b : Fin 16) (l : Fin 1024) :
    val_main_v13 (F := Ideal) (fun i => (xr i : EReal)) (fun i => (qr i : EReal)) (fun i => (wr i : EReal)) (ix3 b l (0 : Fin 1))
      = ((∑ d : Fin 512, (∑ t : Fin 4096, Real.exp (score xr qr b t l - Mf b l) / (∑ t' : Fin 4096, Real.exp (score xr qr b t' l - Mf b l))
            * xr (ix3 b t d)) * wr (ix2 0 d) : ℝ) : EReal) := by
  rw [val_main_v13_apply, coe_finset_sum]
  refine Finset.sum_congr rfl fun k _ => ?_
  have el : lidx_main_v13 (ix3 b l (0 : Fin 1)) k = ix3 b l k := funext fun a => by
    match a with
    | ⟨0, _⟩ => rfl
    | ⟨1, _⟩ => rfl
    | ⟨2, _⟩ => rfl
  have er : ridx_main_v13 (ix3 b l (0 : Fin 1)) k = ix2 (0 : Fin 1) k := funext fun a => by
    match a with
    | ⟨0, _⟩ => rfl
    | ⟨1, _⟩ => rfl
  rw [el, er, v12_at xr qr Mf hM, EReal.coe_mul]

/-- Dropping the unit axis. -/
theorem v14_at (Mf : Fin 16 → Fin 1024 → ℝ)
    (hM : ∀ b l, val_main_v3 (F := Ideal) (fun i => (xr i : EReal)) (fun i => (qr i : EReal)) (ix2 b l) = ((Mf b l : ℝ) : EReal))
    (b : Fin 16) (l : Fin 1024) :
    val_main_v14 (F := Ideal) (fun i => (xr i : EReal)) (fun i => (qr i : EReal)) (fun i => (wr i : EReal)) (ix2 b l)
      = ((∑ d : Fin 512, (∑ t : Fin 4096, Real.exp (score xr qr b t l - Mf b l) / (∑ t' : Fin 4096, Real.exp (score xr qr b t' l - Mf b l))
            * xr (ix3 b t d)) * wr (ix2 0 d) : ℝ) : EReal) := by
  have e : idx_main_v14 (ix2 b l) = ix3 b l (0 : Fin 1) := funext fun a => Fin.ext (by
    have hl : l.val < 1024 := l.isLt
    match a with
    | ⟨0, _⟩ => show (b.val * 1024 + l.val) / 1024 = b.val; omega
    | ⟨1, _⟩ => show (b.val * 1024 + l.val) / 1 % 1024 = l.val; omega
    | ⟨2, _⟩ => rfl)
  rw [val_main_v14_apply, e, v13_at xr qr wr Mf hM]

/-- The bias, broadcast: every entry is the one entry of `fcb`. -/
theorem v16_at (fcb : (⟨1, ![1]⟩ : Shape).Idx → EReal) (b : Fin 16) (l : Fin 1024) :
    val_main_v16 (F := Ideal) fcb (ix2 b l) = fcb (ix1 0) := by
  rw [val_main_v16_apply]
  unfold val_main_v15
  refine shapeCast_apply fcb shapeCasts_S1_S_ _ (ix1 0) ?_
  rw [Shape.rowMajor_val_one]
  exact (Shape.rowMajorPi_zero _ _).symm

end Stages

/-- Entry `(b, l)` of the reference's result on real inputs: the pooled value plus the bias. -/
theorem ref_value_at (xr : (⟨3, ![16, 4096, 512]⟩ : Shape).Idx → ℝ) (qr : (⟨2, ![1024, 512]⟩ : Shape).Idx → ℝ)
    (wr : (⟨2, ![1, 512]⟩ : Shape).Idx → ℝ) (fcb : (⟨1, ![1]⟩ : Shape).Idx → EReal) (b : Fin 16) (l : Fin 1024) :
    val_main_v17 (F := Ideal) (fun i => (xr i : EReal)) (fun i => (qr i : EReal)) (fun i => (wr i : EReal)) fcb (ix2 b l)
      = ((pooled xr qr wr b l : ℝ) : EReal) + fcb (ix1 0) := by
  obtain ⟨Mf, hM⟩ : ∃ Mf : Fin 16 → Fin 1024 → ℝ, ∀ b l,
      val_main_v3 (F := Ideal) (fun i => (xr i : EReal)) (fun i => (qr i : EReal)) (ix2 b l) = ((Mf b l : ℝ) : EReal) :=
    ⟨fun b l => (v3_isReal xr qr b l).choose, fun b l => (v3_isReal xr qr b l).choose_spec⟩
  rw [val_main_v17_apply, v14_at xr qr wr Mf hM, v16_at, Ideal.addf_def]
  unfold pooled
  have h := softmax_head_real (fun t : Fin 4096 => score xr qr b t l) (Mf b l)
    (fun (t : Fin 4096) (d : Fin 512) => xr (ix3 b t d)) (fun d : Fin 512 => wr (ix2 0 d))
  exact congrArg (fun r : ℝ => (r : EReal) + fcb (ix1 0)) h

/-- **The reference's result is the specification's function.**  On real inputs `x`, `q`, `w` (and any bias),
    entry `(b, l)` of the reference's result is the softmax-weighted mean over the sequence of the head's
    values, plus the bias. -/
theorem ref_value (xr : (⟨3, ![16, 4096, 512]⟩ : Shape).Idx → ℝ) (qr : (⟨2, ![1024, 512]⟩ : Shape).Idx → ℝ)
    (wr : (⟨2, ![1, 512]⟩ : Shape).Idx → ℝ) (fcb : (⟨1, ![1]⟩ : Shape).Idx → EReal) :
    Cert.ReferenceIdeal.Read.val_main_v17 (F := Ideal) (fun i => (xr i : EReal)) (fun i => (qr i : EReal))
      (fun i => (wr i : EReal)) fcb = Cert.AttnPool.result xr qr wr fcb := by
  funext i
  exact (congrArg (val_main_v17 (F := Ideal) (fun i => (xr i : EReal)) (fun i => (qr i : EReal))
    (fun i => (wr i : EReal)) fcb) (eq_ix2 (n0 := 16) (n1 := 1024) i)).trans (ref_value_at xr qr wr fcb (i 0) (i 1))

end Cert.AttnPool.Ref

end
-- ==== Proof.LibFiniteEntry.lean ====
import Idealize.ShloMosaic.Lib.ReduceAll
import Idealize.ShloMosaic.Lib.ValueIdx
import Idealize.ShloMosaic.PureOps.Ideal

/-!
# A finiteness test read back at one entry

A test "every entry of `x` has absolute value below +∞" is the conjunction, over all indices, of the
one-bit comparisons `|x i| < +∞`. When the conjunction is 1, every comparison is 1, and an extended real
whose absolute value is strictly below +∞ is neither +∞ nor -∞: it is a real number.
-/

noncomputable section

namespace Idealize.ShloMosaic.FiniteEntry

open Idealize.ShloMosaic Idealize.ShloMosaic.ValueIdx

/-- The f32 word `0x7F800000` denotes +∞. -/
theorem ofBits_inf : Ideal.ofBits .f32 0x7F800000#32 = (⊤ : EReal) := by
  simp [Ideal.ofBits, Ideal.ieee]

/-- An extended real `x` with `max x (-x) < +∞` (as a one-bit comparison equal to 1) is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | top => exact absurd h (by simp [Ideal.cmp])
  | coe r => exact ⟨r, rfl⟩

instance : Subsingleton (⟨0, ![]⟩ : Shape).Idx := ⟨fun a b => funext fun d => d.elim0⟩

/-- The test `all (|x| < +∞)` over an array `x` of any shape `s`: if the reduction by `and` of the
    comparisons of `|x|` against the broadcast word of +∞ is 1, then every entry of `x` is a real number. -/
theorem real_of_all_abs_lt_inf {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1)
    (i : s.Idx) : ∃ r : ℝ, x i = (r : EReal) :=
  real_of_abs_lt_inf (x i) (Host.reduce_andi_all _ _ hr hu ix0 e i)

end Idealize.ShloMosaic.FiniteEntry
-- ==== Proof.Finite.lean ====
import proofs.«110159_j22342419874354_2_alg».proof.Defs
import proofs.«110159_j22342419874354_2_alg».proof.Proof.Gen.Pre_finite_inputs
import proofs.«110159_j22342419874354_2_alg».proof.Proof.LibFiniteEntry
import Idealize.ShloMosaic.Lib.ValueIdx

/-!
# From the finiteness precondition to real-valued inputs

The precondition is the conjunction of four tests `all (|a| < +∞)`, one per argument array. When the
conjunction is 1 every test is 1, and a test that is 1 says every entry of its array is a real number.
-/

noncomputable section

namespace Cert.AttnPool.Finite

open Idealize.ShloMosaic Idealize.SL.Sem Idealize.ShloMosaic.ValueIdx

/-- Every entry of the first three argument arrays is a real number. -/
theorem real_inputs [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) :
        FVec Ideal Cert.Pre_finite_inputs.S16x4096x512 .f32) i = (r : EReal))
  ∧ (∀ i, ∃ r : ℝ, (m ((c.tc : Thread Cert.KernelIdeal.nD Cert.KernelIdeal.τ).loc Cert.KernelIdeal.main_arg1) :
        FVec Ideal Cert.Pre_finite_inputs.S1024x512 .f32) i = (r : EReal))
  ∧ (∀ i, ∃ r : ℝ, (m ((c.tc : Thread Cert.KernelIdeal.nD Cert.KernelIdeal.τ).loc Cert.KernelIdeal.main_arg2) :
        FVec Ideal Cert.Pre_finite_inputs.S1x512 .f32) i = (r : EReal)) := by
  have h0 := congrFun (h c) ix0
  dsimp only [Cert.Pre_finite_inputs.fn, Cert.Pre_finite_inputs.fn_part1, andi] at h0
  obtain ⟨h123, -⟩ := IntOp.andi_eq_one.1 h0
  obtain ⟨h12, h3⟩ := IntOp.andi_eq_one.1 h123
  obtain ⟨h1, h2⟩ := IntOp.andi_eq_one.1 h12
  exact ⟨FiniteEntry.real_of_all_abs_lt_inf _ _ _ _ h1,
         FiniteEntry.real_of_all_abs_lt_inf _ _ _ _ h2,
         FiniteEntry.real_of_all_abs_lt_inf _ _ _ _ h3⟩

/-- The first three argument arrays are arrays of real numbers, read as extended reals. -/
theorem real_arrays [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ (xr : (⟨3, ![16, 4096, 512]⟩ : Shape).Idx → ℝ) (qr : (⟨2, ![1024, 512]⟩ : Shape).Idx → ℝ)
      (wr : (⟨2, ![1, 512]⟩ : Shape).Idx → ℝ),
      (m ((c.tc : Thread Cert.KernelIdeal.nD Cert.KernelIdeal.τ).loc Cert.KernelIdeal.main_arg0) :
        FVec Ideal Cert.Pre_finite_inputs.S16x4096x512 .f32) = (fun i => (xr i : EReal))
    ∧ (m ((c.tc : Thread Cert.KernelIdeal.nD Cert.KernelIdeal.τ).loc Cert.KernelIdeal.main_arg1) :
        FVec Ideal Cert.Pre_finite_inputs.S1024x512 .f32) = (fun i => (qr i : EReal))
    ∧ (m ((c.tc : Thread Cert.KernelIdeal.nD Cert.KernelIdeal.τ).loc Cert.KernelIdeal.main_arg2) :
        FVec Ideal Cert.Pre_finite_inputs.S1x512 .f32) = (fun i => (wr i : EReal)) := by
  obtain ⟨hx, hq, hw⟩ := real_inputs m h c
  choose xr hxr using hx
  choose qr hqr using hq
  choose wr hwr using hw
  exact ⟨xr, qr, wr, funext hxr, funext hqr, funext hwr⟩

end Cert.AttnPool.Finite

end
-- ==== Proof.lean ====
/-
  The claim: the attention-pooling kernel, its idealization and its reference.

  The kernel pools a sequence by label-wise softmax attention and applies a linear head.  It never forms the
  attention matrix: per tile of 128 sequence positions it keeps, for every (row, label), the running maximum of
  the scores, the running sum of their exponentials and the running sum of the exponentials times the head's
  value of the position, rescaling the two sums whenever the maximum grows; after the last tile it divides.
  The reference forms the softmax explicitly, pools the rows and applies the head.  Over the extended reals,
  with every input a real number, both are the softmax-weighted mean of the head's values plus the bias:
  the rescaling keeps each partial sum equal to the sum of exp (score - current maximum), a softmax does not
  change when a constant is subtracted from every score, and the head, being linear, commutes with the pooling.
  The three-pass split-precision product adds two passes whose factor is x - x or q - q, which vanish at real
  inputs — this is where the finiteness of the inputs is used, together with dividing by a sum that is a
  positive real.
-/
import proofs.«110159_j22342419874354_2_alg».proof.Defs
import proofs.«110159_j22342419874354_2_alg».proof.Proof.Gen.Kernel
import proofs.«110159_j22342419874354_2_alg».proof.Proof.Gen.Kernel.Frame
import proofs.«110159_j22342419874354_2_alg».proof.Proof.Gen.KernelIdeal
import proofs.«110159_j22342419874354_2_alg».proof.Proof.Gen.KernelIdeal.Frame
import proofs.«110159_j22342419874354_2_alg».proof.Proof.Gen.ReferenceIdeal
import proofs.«110159_j22342419874354_2_alg».proof.Proof.Gen.Pre_finite_inputs
import proofs.«110159_j22342419874354_2_alg».proof.Proof.Gen.ReferenceIdeal.Run
import proofs.«110159_j22342419874354_2_alg».proof.Proof.Gen.ReferenceIdeal.Read
import proofs.«110159_j22342419874354_2_alg».proof.Proof.RealValue
import proofs.«110159_j22342419874354_2_alg».proof.Proof.RefValue
import proofs.«110159_j22342419874354_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The two rewrites of the idealization: a round trip through bf16 of the flattened block of `x` and of `q` is
    the identity on the extended reals. -/
theorem preserves : Cert.preserves_Kernel_KernelIdeal :=
  ⟨IdealRules.truncf_extf.statement Cert.KernelIdeal.S1024x512 .f32 .bf16,
    IdealRules.truncf_extf.statement Cert.KernelIdeal.S1024x512 .f32 .bf16⟩

/-- Both programs end with the specification's function of the real inputs. -/
theorem algebraic : Cert.algebraic_KernelIdeal_ReferenceIdeal := by
  intro m ρ m' ρ' hpre hagree
  refine ⟨fun c => Cert.KernelIdeal.RegionValue.result m c, Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  obtain ⟨xr, qr, wr, hx, hq, hw⟩ := Cert.AttnPool.Finite.real_arrays m hpre c
  rw [Cert.ReferenceIdeal.Read.val_main_v17_eq, (hagree c).1, (hagree c).2.1, (hagree c).2.2.1, (hagree c).2.2.2]
  show _ = Cert.KernelIdeal.RegionValue.result m c
  rw [Cert.KernelIdeal.RealValue.result_real m xr qr wr c hx hq hw, hx, hq, hw, Cert.AttnPool.Ref.ref_value]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
